-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x252x252 : Shape := ⟨4, ![4, 16, 252, 252]⟩
abbrev S16x16x4x4 : Shape := ⟨4, ![16, 16, 4, 4]⟩
abbrev S_ : Shape := ⟨0, ![]⟩

class Facts : Prop where
  bcast_S_S4x16x252x252 : S_.BroadcastsInDim S4x16x252x252 (![] : Fin 0 → Fin S4x16x252x252.rank)
  reducesTo_S4x16x252x252_S_d0_1_2_3 : S4x16x252x252.ReducesTo [0, 1, 2, 3] S_
  h_S_ : 0 < S_.numel
  bcast_S_S16x16x4x4 : S_.BroadcastsInDim S16x16x4x4 (![] : Fin 0 → Fin S16x16x4x4.rank)
  reducesTo_S16x16x4x4_S_d0_1_2_3 : S16x16x4x4.ReducesTo [0, 1, 2, 3] S_

variable [Facts]

def fn {F : FTy → Type} [FloatOps F] (main_arg0 : FVec F S4x16x252x252 .f32) (main_arg1 : FVec F S16x16x4x4 .f32) : IVec S_ 1 :=
  let main_v0 : FVec F S4x16x252x252 .f32 := Host.absf main_arg0
  let main_cst : FVec F S_ .f32 := constant S_ .f32 0x7F800000#32
  let main_v1 : FVec F S4x16x252x252 .f32 := broadcastInDim S4x16x252x252 ![] bcast_S_S4x16x252x252 main_cst
  let main_v2 : IVec S4x16x252x252 1 := cmpf .olt main_v0 main_v1
  let main_c : IVec S_ 1 := constantI S_ 1 1#1
  let main_v3 : IVec S_ 1 := (fun x v => Host.reduce IntOp.andi x v reducesTo_S4x16x252x252_S_d0_1_2_3 h_S_) main_v2 main_c
  let main_v4 : FVec F S16x16x4x4 .f32 := Host.absf main_arg1
  let main_cst_0 : FVec F S_ .f32 := constant S_ .f32 0x7F800000#32
  let main_v5 : FVec F S16x16x4x4 .f32 := broadcastInDim S16x16x4x4 ![] bcast_S_S16x16x4x4 main_cst_0
  let main_v6 : IVec S16x16x4x4 1 := cmpf .olt main_v4 main_v5
  let main_c_1 : IVec S_ 1 := constantI S_ 1 1#1
  let main_v7 : IVec S_ 1 := (fun x v => Host.reduce IntOp.andi x v reducesTo_S16x16x4x4_S_d0_1_2_3 h_S_) main_v6 main_c_1
  let main_v8 : IVec S_ 1 := andi main_v3 main_v7
  main_v8
-- ==== Kernel.lean ====
abbrev S4x16x252x252 : Shape := ⟨4, ![4, 16, 252, 252]⟩
abbrev S16x16x4x4 : Shape := ⟨4, ![16, 16, 4, 4]⟩
abbrev S_ : Shape := ⟨0, ![]⟩
abbrev S4x16x256x256 : Shape := ⟨4, ![4, 16, 256, 256]⟩
abbrev S4x16x253x253 : Shape := ⟨4, ![4, 16, 253, 253]⟩
abbrev S1x16x256x256 : Shape := ⟨4, ![1, 16, 256, 256]⟩
abbrev S1x16x4x4 : Shape := ⟨4, ![1, 16, 4, 4]⟩
abbrev S1x1x253x253 : Shape := ⟨4, ![1, 1, 253, 253]⟩
abbrev S253x253 : Shape := ⟨2, ![253, 253]⟩
abbrev S1x16x253x253 : Shape := ⟨4, ![1, 16, 253, 253]⟩
abbrev S16x253x253 : Shape := ⟨3, ![16, 253, 253]⟩
abbrev S1x16x1x1 : Shape := ⟨4, ![1, 16, 1, 1]⟩
abbrev S16 : Shape := ⟨1, ![16]⟩
abbrev S16x1x1 : Shape := ⟨3, ![16, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x16x252x252, .f32⟩
  | .hbm, ⟨1, _⟩ => ⟨S16x16x4x4, .f32⟩
  | .hbm, ⟨2, _⟩ => ⟨S_, .i32⟩
  | .hbm, ⟨3, _⟩ => ⟨S_, .f32⟩
  | .hbm, ⟨4, _⟩ => ⟨S4x16x256x256, .f32⟩
  | .hbm, ⟨5, _⟩ => ⟨S4x16x253x253, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x4x4, .f32⟩
  | .local _ .vmem, ⟨3, _⟩ => ⟨S1x16x4x4, .f32⟩
  | .local _ .vmem, ⟨4, _⟩ => ⟨S1x1x253x253, .f32⟩
  | .local _ .vmem, ⟨5, _⟩ => ⟨S1x1x253x253, .f32⟩
  | _, _ => ⟨S4x16x252x252, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x253x253 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x16x252x252_S4x16x256x256_000_000_220_220 : S4x16x252x252.Pads (![0, 0, 2, 2] : Fin 4 → Nat) ![0, 0, 2, 2] ![0, 0, 0, 0] S4x16x256x256
  h_S_ : 0 < S_.numel
  inb_S1x16x256x256_S1x16x253x253_0_0_0_0 : ∀ a, (![0, 0, 0, 0] : Fin 4 → Nat) a + S1x16x253x253.size a ≤ S1x16x256x256.size a
  h_S1x16x253x253 : 0 < S1x16x253x253.numel
  shapeCasts_S1x16x253x253_S16x253x253 : S1x16x253x253.ShapeCasts S16x253x253
  inb_S1x16x4x4_S1x16x1x1_0_0_0_0 : ∀ a, (![0, 0, 0, 0] : Fin 4 → Nat) a + S1x16x1x1.size a ≤ S1x16x4x4.size a
  h_S1x16x1x1 : 0 < S1x16x1x1.numel
  shapeCasts_S1x16x1x1_S16 : S1x16x1x1.ShapeCasts S16
  shapeCasts_S16_S16x1x1 : S16.ShapeCasts S16x1x1
  broadcasts_S16x1x1_S16x253x253 : S16x1x1.Broadcasts S16x253x253
  reduces_S16x253x253_S253x253 : S16x253x253.Reduces [0] S253x253
  inb_S1x16x256x256_S1x16x253x253_0_0_0_1 : ∀ a, (![0, 0, 0, 1] : Fin 4 → Nat) a + S1x16x253x253.size a ≤ S1x16x256x256.size a
  inb_S1x16x4x4_S1x16x1x1_0_0_0_1 : ∀ a, (![0, 0, 0, 1] : Fin 4 → Nat) a + S1x16x1x1.size a ≤ S1x16x4x4.size a
  inb_S1x16x256x256_S1x16x253x253_0_0_0_2 : ∀ a, (![0, 0, 0, 2] : Fin 4 → Nat) a + S1x16x253x253.size a ≤ S1x16x256x256.size a
  inb_S1x16x4x4_S1x16x1x1_0_0_0_2 : ∀ a, (![0, 0, 0, 2] : Fin 4 → Nat) a + S1x16x1x1.size a ≤ S1x16x4x4.size a
  inb_S1x16x256x256_S1x16x253x253_0_0_0_3 : ∀ a, (![0, 0, 0, 3] : Fin 4 → Nat) a + S1x16x253x253.size a ≤ S1x16x256x256.size a
  inb_S1x16x4x4_S1x16x1x1_0_0_0_3 : ∀ a, (![0, 0, 0, 3] : Fin 4 → Nat) a + S1x16x1x1.size a ≤ S1x16x4x4.size a
  inb_S1x16x256x256_S1x16x253x253_0_0_1_0 : ∀ a, (![0, 0, 1, 0] : Fin 4 → Nat) a + S1x16x253x253.size a ≤ S1x16x256x256.size a
  inb_S1x16x4x4_S1x16x1x1_0_0_1_0 : ∀ a, (![0, 0, 1, 0] : Fin 4 → Nat) a + S1x16x1x1.size a ≤ S1x16x4x4.size a
  inb_S1x16x256x256_S1x16x253x253_0_0_1_1 : ∀ a, (![0, 0, 1, 1] : Fin 4 → Nat) a + S1x16x253x253.size a ≤ S1x16x256x256.size a
  inb_S1x16x4x4_S1x16x1x1_0_0_1_1 : ∀ a, (![0, 0, 1, 1] : Fin 4 → Nat) a + S1x16x1x1.size a ≤ S1x16x4x4.size a
  inb_S1x16x256x256_S1x16x253x253_0_0_1_2 : ∀ a, (![0, 0, 1, 2] : Fin 4 → Nat) a + S1x16x253x253.size a ≤ S1x16x256x256.size a
  inb_S1x16x4x4_S1x16x1x1_0_0_1_2 : ∀ a, (![0, 0, 1, 2] : Fin 4 → Nat) a + S1x16x1x1.size a ≤ S1x16x4x4.size a
  inb_S1x16x256x256_S1x16x253x253_0_0_1_3 : ∀ a, (![0, 0, 1, 3] : Fin 4 → Nat) a + S1x16x253x253.size a ≤ S1x16x256x256.size a
  inb_S1x16x4x4_S1x16x1x1_0_0_1_3 : ∀ a, (![0, 0, 1, 3] : Fin 4 → Nat) a + S1x16x1x1.size a ≤ S1x16x4x4.size a
  inb_S1x16x256x256_S1x16x253x253_0_0_2_0 : ∀ a, (![0, 0, 2, 0] : Fin 4 → Nat) a + S1x16x253x253.size a ≤ S1x16x256x256.size a
  inb_S1x16x4x4_S1x16x1x1_0_0_2_0 : ∀ a, (![0, 0, 2, 0] : Fin 4 → Nat) a + S1x16x1x1.size a ≤ S1x16x4x4.size a
  inb_S1x16x256x256_S1x16x253x253_0_0_2_1 : ∀ a, (![0, 0, 2, 1] : Fin 4 → Nat) a + S1x16x253x253.size a ≤ S1x16x256x256.size a
  inb_S1x16x4x4_S1x16x1x1_0_0_2_1 : ∀ a, (![0, 0, 2, 1] : Fin 4 → Nat) a + S1x16x1x1.size a ≤ S1x16x4x4.size a
  inb_S1x16x256x256_S1x16x253x253_0_0_2_2 : ∀ a, (![0, 0, 2, 2] : Fin 4 → Nat) a + S1x16x253x253.size a ≤ S1x16x256x256.size a
  inb_S1x16x4x4_S1x16x1x1_0_0_2_2 : ∀ a, (![0, 0, 2, 2] : Fin 4 → Nat) a + S1x16x1x1.size a ≤ S1x16x4x4.size a
  inb_S1x16x256x256_S1x16x253x253_0_0_2_3 : ∀ a, (![0, 0, 2, 3] : Fin 4 → Nat) a + S1x16x253x253.size a ≤ S1x16x256x256.size a
  inb_S1x16x4x4_S1x16x1x1_0_0_2_3 : ∀ a, (![0, 0, 2, 3] : Fin 4 → Nat) a + S1x16x1x1.size a ≤ S1x16x4x4.size a
  inb_S1x16x256x256_S1x16x253x253_0_0_3_0 : ∀ a, (![0, 0, 3, 0] : Fin 4 → Nat) a + S1x16x253x253.size a ≤ S1x16x256x256.size a
  inb_S1x16x4x4_S1x16x1x1_0_0_3_0 : ∀ a, (![0, 0, 3, 0] : Fin 4 → Nat) a + S1x16x1x1.size a ≤ S1x16x4x4.size a
  inb_S1x16x256x256_S1x16x253x253_0_0_3_1 : ∀ a, (![0, 0, 3, 1] : Fin 4 → Nat) a + S1x16x253x253.size a ≤ S1x16x256x256.size a
  inb_S1x16x4x4_S1x16x1x1_0_0_3_1 : ∀ a, (![0, 0, 3, 1] : Fin 4 → Nat) a + S1x16x1x1.size a ≤ S1x16x4x4.size a
  inb_S1x16x256x256_S1x16x253x253_0_0_3_2 : ∀ a, (![0, 0, 3, 2] : Fin 4 → Nat) a + S1x16x253x253.size a ≤ S1x16x256x256.size a
  inb_S1x16x4x4_S1x16x1x1_0_0_3_2 : ∀ a, (![0, 0, 3, 2] : Fin 4 → Nat) a + S1x16x1x1.size a ≤ S1x16x4x4.size a
  inb_S1x16x256x256_S1x16x253x253_0_0_3_3 : ∀ a, (![0, 0, 3, 3] : Fin 4 → Nat) a + S1x16x253x253.size a ≤ S1x16x256x256.size a
  inb_S1x16x4x4_S1x16x1x1_0_0_3_3 : ∀ a, (![0, 0, 3, 3] : Fin 4 → Nat) a + S1x16x1x1.size a ≤ S1x16x4x4.size a
  inb_S1x1x253x253_S1x1x253x253_0_0_0_0 : ∀ a, (![0, 0, 0, 0] : Fin 4 → Nat) a + S1x1x253x253.size a ≤ S1x1x253x253.size a
  h_S1x1x253x253 : 0 < S1x1x253x253.numel
  shapeCasts_S1x1x253x253_S253x253 : S1x1x253x253.ShapeCasts S253x253
  shapeCasts_S253x253_S1x1x253x253 : S253x253.ShapeCasts S1x1x253x253
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S4x16x256x256.size a
  hwx0_0 : ∀ i : grid0.Coords, EltTy.bits .f32 = 32 ∨ (Rect.block (s := S4x16x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x4x4.size a ≤ S16x16x4x4.size a
  hwx0_1 : ∀ i : grid0.Coords, EltTy.bits .f32 = 32 ∨ (Rect.block (s := S16x16x4x4) S1x16x4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x253x253.size a ≤ S4x16x253x253.size a
  hwx0_2 : ∀ i : grid0.Coords, EltTy.bits .f32 = 32 ∨ (Rect.block (s := S4x16x253x253) S1x1x253x253.size (cc0_transform_2 i) (hinb0_2 i)).WholeWords (EltTy.packing .f32)

variable [Facts₀]

abbrev win0_0 : Pipeline.Window sig grid0 :=
  Pipeline.Window.ofSpec (Memref.whole main_v0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x4x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x253x253.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x252x252 : Shape := ⟨4, ![4, 16, 252, 252]⟩
abbrev S16x16x4x4 : Shape := ⟨4, ![16, 16, 4, 4]⟩
abbrev S_ : Shape := ⟨0, ![]⟩
abbrev S4x16x256x256 : Shape := ⟨4, ![4, 16, 256, 256]⟩
abbrev S4x16x253x253 : Shape := ⟨4, ![4, 16, 253, 253]⟩
abbrev S16x16x1x1 : Shape := ⟨4, ![16, 16, 1, 1]⟩
abbrev S16x16 : Shape := ⟨2, ![16, 16]⟩
abbrev S4x1x16x253x253 : Shape := ⟨5, ![4, 1, 16, 253, 253]⟩
abbrev S1x16x16x1x1 : Shape := ⟨5, ![1, 16, 16, 1, 1]⟩
abbrev S4x16x16x253x253 : Shape := ⟨5, ![4, 16, 16, 253, 253]⟩

abbrev nBuf : Space → Nat
  | .hbm => 183
  | .vmem => 0
  | .smem => 0
  | _ => 0

abbrev hbmTy0_0 (i : Nat) : BufTy := match i % 128 with
  | 0 => ⟨S4x16x252x252, .f32⟩
  | 1 => ⟨S16x16x4x4, .f32⟩
  | 2 => ⟨S_, .i32⟩
  | 3 => ⟨S_, .f32⟩
  | 4 => ⟨S4x16x256x256, .f32⟩
  | 5 => ⟨S_, .f32⟩
  | 6 => ⟨S4x16x253x253, .f32⟩
  | 7 => ⟨S4x16x253x253, .f32⟩
  | 8 => ⟨S16x16x1x1, .f32⟩
  | 9 => ⟨S16x16, .f32⟩
  | 10 => ⟨S4x1x16x253x253, .f32⟩
  | 11 => ⟨S1x16x16x1x1, .f32⟩
  | 12 => ⟨S4x16x16x253x253, .f32⟩
  | 13 => ⟨S4x16x16x253x253, .f32⟩
  | 14 => ⟨S4x16x16x253x253, .f32⟩
  | 15 => ⟨S_, .f32⟩
  | 16 => ⟨S4x16x253x253, .f32⟩
  | 17 => ⟨S4x16x253x253, .f32⟩
  | 18 => ⟨S4x16x253x253, .f32⟩
  | 19 => ⟨S16x16x1x1, .f32⟩
  | 20 => ⟨S16x16, .f32⟩
  | 21 => ⟨S4x1x16x253x253, .f32⟩
  | 22 => ⟨S1x16x16x1x1, .f32⟩
  | 23 => ⟨S4x16x16x253x253, .f32⟩
  | 24 => ⟨S4x16x16x253x253, .f32⟩
  | 25 => ⟨S4x16x16x253x253, .f32⟩
  | 26 => ⟨S_, .f32⟩
  | 27 => ⟨S4x16x253x253, .f32⟩
  | 28 => ⟨S4x16x253x253, .f32⟩
  | 29 => ⟨S4x16x253x253, .f32⟩
  | 30 => ⟨S16x16x1x1, .f32⟩
  | 31 => ⟨S16x16, .f32⟩
  | 32 => ⟨S4x1x16x253x253, .f32⟩
  | 33 => ⟨S1x16x16x1x1, .f32⟩
  | 34 => ⟨S4x16x16x253x253, .f32⟩
  | 35 => ⟨S4x16x16x253x253, .f32⟩
  | 36 => ⟨S4x16x16x253x253, .f32⟩
  | 37 => ⟨S_, .f32⟩
  | 38 => ⟨S4x16x253x253, .f32⟩
  | 39 => ⟨S4x16x253x253, .f32⟩
  | 40 => ⟨S4x16x253x253, .f32⟩
  | 41 => ⟨S16x16x1x1, .f32⟩
  | 42 => ⟨S16x16, .f32⟩
  | 43 => ⟨S4x1x16x253x253, .f32⟩
  | 44 => ⟨S1x16x16x1x1, .f32⟩
  | 45 => ⟨S4x16x16x253x253, .f32⟩
  | 46 => ⟨S4x16x16x253x253, .f32⟩
  | 47 => ⟨S4x16x16x253x253, .f32⟩
  | 48 => ⟨S_, .f32⟩
  | 49 => ⟨S4x16x253x253, .f32⟩
  | 50 => ⟨S4x16x253x253, .f32⟩
  | 51 => ⟨S4x16x253x253, .f32⟩
  | 52 => ⟨S16x16x1x1, .f32⟩
  | 53 => ⟨S16x16, .f32⟩
  | 54 => ⟨S4x1x16x253x253, .f32⟩
  | 55 => ⟨S1x16x16x1x1, .f32⟩
  | 56 => ⟨S4x16x16x253x253, .f32⟩
  | 57 => ⟨S4x16x16x253x253, .f32⟩
  | 58 => ⟨S4x16x16x253x253, .f32⟩
  | 59 => ⟨S_, .f32⟩
  | 60 => ⟨S4x16x253x253, .f32⟩
  | 61 => ⟨S4x16x253x253, .f32⟩
  | 62 => ⟨S4x16x253x253, .f32⟩
  | 63 => ⟨S16x16x1x1, .f32⟩
  | 64 => ⟨S16x16, .f32⟩
  | 65 => ⟨S4x1x16x253x253, .f32⟩
  | 66 => ⟨S1x16x16x1x1, .f32⟩
  | 67 => ⟨S4x16x16x253x253, .f32⟩
  | 68 => ⟨S4x16x16x253x253, .f32⟩
  | 69 => ⟨S4x16x16x253x253, .f32⟩
  | 70 => ⟨S_, .f32⟩
  | 71 => ⟨S4x16x253x253, .f32⟩
  | 72 => ⟨S4x16x253x253, .f32⟩
  | 73 => ⟨S4x16x253x253, .f32⟩
  | 74 => ⟨S16x16x1x1, .f32⟩
  | 75 => ⟨S16x16, .f32⟩
  | 76 => ⟨S4x1x16x253x253, .f32⟩
  | 77 => ⟨S1x16x16x1x1, .f32⟩
  | 78 => ⟨S4x16x16x253x253, .f32⟩
  | 79 => ⟨S4x16x16x253x253, .f32⟩
  | 80 => ⟨S4x16x16x253x253, .f32⟩
  | 81 => ⟨S_, .f32⟩
  | 82 => ⟨S4x16x253x253, .f32⟩
  | 83 => ⟨S4x16x253x253, .f32⟩
  | 84 => ⟨S4x16x253x253, .f32⟩
  | 85 => ⟨S16x16x1x1, .f32⟩
  | 86 => ⟨S16x16, .f32⟩
  | 87 => ⟨S4x1x16x253x253, .f32⟩
  | 88 => ⟨S1x16x16x1x1, .f32⟩
  | 89 => ⟨S4x16x16x253x253, .f32⟩
  | 90 => ⟨S4x16x16x253x253, .f32⟩
  | 91 => ⟨S4x16x16x253x253, .f32⟩
  | 92 => ⟨S_, .f32⟩
  | 93 => ⟨S4x16x253x253, .f32⟩
  | 94 => ⟨S4x16x253x253, .f32⟩
  | 95 => ⟨S4x16x253x253, .f32⟩
  | 96 => ⟨S16x16x1x1, .f32⟩
  | 97 => ⟨S16x16, .f32⟩
  | 98 => ⟨S4x1x16x253x253, .f32⟩
  | 99 => ⟨S1x16x16x1x1, .f32⟩
  | 100 => ⟨S4x16x16x253x253, .f32⟩
  | 101 => ⟨S4x16x16x253x253, .f32⟩
  | 102 => ⟨S4x16x16x253x253, .f32⟩
  | 103 => ⟨S_, .f32⟩
  | 104 => ⟨S4x16x253x253, .f32⟩
  | 105 => ⟨S4x16x253x253, .f32⟩
  | 106 => ⟨S4x16x253x253, .f32⟩
  | 107 => ⟨S16x16x1x1, .f32⟩
  | 108 => ⟨S16x16, .f32⟩
  | 109 => ⟨S4x1x16x253x253, .f32⟩
  | 110 => ⟨S1x16x16x1x1, .f32⟩
  | 111 => ⟨S4x16x16x253x253, .f32⟩
  | 112 => ⟨S4x16x16x253x253, .f32⟩
  | 113 => ⟨S4x16x16x253x253, .f32⟩
  | 114 => ⟨S_, .f32⟩
  | 115 => ⟨S4x16x253x253, .f32⟩
  | 116 => ⟨S4x16x253x253, .f32⟩
  | 117 => ⟨S4x16x253x253, .f32⟩
  | 118 => ⟨S16x16x1x1, .f32⟩
  | 119 => ⟨S16x16, .f32⟩
  | 120 => ⟨S4x1x16x253x253, .f32⟩
  | 121 => ⟨S1x16x16x1x1, .f32⟩
  | 122 => ⟨S4x16x16x253x253, .f32⟩
  | 123 => ⟨S4x16x16x253x253, .f32⟩
  | 124 => ⟨S4x16x16x253x253, .f32⟩
  | 125 => ⟨S_, .f32⟩
  | 126 => ⟨S4x16x253x253, .f32⟩
  | 127 => ⟨S4x16x253x253, .f32⟩
  | _ => ⟨S4x16x252x252, .f32⟩

abbrev hbmTy0_1 (i : Nat) : BufTy := match i % 128 with
  | 0 => ⟨S4x16x253x253, .f32⟩
  | 1 => ⟨S16x16x1x1, .f32⟩
  | 2 => ⟨S16x16, .f32⟩
  | 3 => ⟨S4x1x16x253x253, .f32⟩
  | 4 => ⟨S1x16x16x1x1, .f32⟩
  | 5 => ⟨S4x16x16x253x253, .f32⟩
  | 6 => ⟨S4x16x16x253x253, .f32⟩
  | 7 => ⟨S4x16x16x253x253, .f32⟩
  | 8 => ⟨S_, .f32⟩
  | 9 => ⟨S4x16x253x253, .f32⟩
  | 10 => ⟨S4x16x253x253, .f32⟩
  | 11 => ⟨S4x16x253x253, .f32⟩
  | 12 => ⟨S16x16x1x1, .f32⟩
  | 13 => ⟨S16x16, .f32⟩
  | 14 => ⟨S4x1x16x253x253, .f32⟩
  | 15 => ⟨S1x16x16x1x1, .f32⟩
  | 16 => ⟨S4x16x16x253x253, .f32⟩
  | 17 => ⟨S4x16x16x253x253, .f32⟩
  | 18 => ⟨S4x16x16x253x253, .f32⟩
  | 19 => ⟨S_, .f32⟩
  | 20 => ⟨S4x16x253x253, .f32⟩
  | 21 => ⟨S4x16x253x253, .f32⟩
  | 22 => ⟨S4x16x253x253, .f32⟩
  | 23 => ⟨S16x16x1x1, .f32⟩
  | 24 => ⟨S16x16, .f32⟩
  | 25 => ⟨S4x1x16x253x253, .f32⟩
  | 26 => ⟨S1x16x16x1x1, .f32⟩
  | 27 => ⟨S4x16x16x253x253, .f32⟩
  | 28 => ⟨S4x16x16x253x253, .f32⟩
  | 29 => ⟨S4x16x16x253x253, .f32⟩
  | 30 => ⟨S_, .f32⟩
  | 31 => ⟨S4x16x253x253, .f32⟩
  | 32 => ⟨S4x16x253x253, .f32⟩
  | 33 => ⟨S4x16x253x253, .f32⟩
  | 34 => ⟨S16x16x1x1, .f32⟩
  | 35 => ⟨S16x16, .f32⟩
  | 36 => ⟨S4x1x16x253x253, .f32⟩
  | 37 => ⟨S1x16x16x1x1, .f32⟩
  | 38 => ⟨S4x16x16x253x253, .f32⟩
  | 39 => ⟨S4x16x16x253x253, .f32⟩
  | 40 => ⟨S4x16x16x253x253, .f32⟩
  | 41 => ⟨S_, .f32⟩
  | 42 => ⟨S4x16x253x253, .f32⟩
  | 43 => ⟨S4x16x253x253, .f32⟩
  | 44 => ⟨S4x16x253x253, .f32⟩
  | 45 => ⟨S16x16x1x1, .f32⟩
  | 46 => ⟨S16x16, .f32⟩
  | 47 => ⟨S4x1x16x253x253, .f32⟩
  | 48 => ⟨S1x16x16x1x1, .f32⟩
  | 49 => ⟨S4x16x16x253x253, .f32⟩
  | 50 => ⟨S4x16x16x253x253, .f32⟩
  | 51 => ⟨S4x16x16x253x253, .f32⟩
  | 52 => ⟨S_, .f32⟩
  | 53 => ⟨S4x16x253x253, .f32⟩
  | 54 => ⟨S4x16x253x253, .f32⟩
  | _ => ⟨S4x16x252x252, .f32⟩

abbrev hbmTy (i : Nat) : BufTy := match i / 128 with
  | 0 => hbmTy0_0 i
  | 1 => hbmTy0_1 i
  | _ => ⟨S4x16x252x252, .f32⟩

abbrev bufTy : (tb : Table) → Fin (tcTables nBuf tb) → BufTy
  | .hbm, ⟨i, _⟩ => hbmTy i
  | _, _ => ⟨S4x16x252x252, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_10 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_cst_11 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_cst_12 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_cst_13 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_cst_14 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_cst_15 : Ref sig .tc := ⟨.hbm, 180, rfl⟩
abbrev main_v160 : Ref sig .tc := ⟨.hbm, 181, rfl⟩
abbrev main_v161 : Ref sig .tc := ⟨.hbm, 182, rfl⟩

abbrev nD : Nat := 1
abbrev τ : Topo := Topo.v7x

variable {F : FTy → Type} [FloatOps F]

class Facts₀ : Prop where
  pads_S4x16x252x252_S4x16x256x256_000_000_220_220 : S4x16x252x252.Pads (![0, 0, 2, 2] : Fin 4 → Nat) ![0, 0, 2, 2] ![0, 0, 0, 0] S4x16x256x256
  h_S_ : 0 < S_.numel
  bcast_S_S4x16x253x253 : S_.BroadcastsInDim S4x16x253x253 (![] : Fin 0 → Fin S4x16x253x253.rank)
  slices_S4x16x256x256_S4x16x253x253_0_0_0_0 : S4x16x256x256.Slices ![0, 0, 0, 0] S4x16x253x253
  slices_S16x16x4x4_S16x16x1x1_0_0_0_0 : S16x16x4x4.Slices ![0, 0, 0, 0] S16x16x1x1
  shapeCasts_S16x16x1x1_S16x16 : S16x16x1x1.ShapeCasts S16x16
  bcast_S4x16x253x253_S4x1x16x253x253_0_2_3_4 : S4x16x253x253.BroadcastsInDim S4x1x16x253x253 (![0, 2, 3, 4] : Fin 4 → Fin S4x1x16x253x253.rank)
  bcast_S16x16_S1x16x16x1x1_1_2 : S16x16.BroadcastsInDim S1x16x16x1x1 (![1, 2] : Fin 2 → Fin S1x16x16x1x1.rank)
  bcast_S4x1x16x253x253_S4x16x16x253x253_0_1_2_3_4 : S4x1x16x253x253.BroadcastsInDim S4x16x16x253x253 (![0, 1, 2, 3, 4] : Fin 5 → Fin S4x16x16x253x253.rank)
  bcast_S1x16x16x1x1_S4x16x16x253x253_0_1_2_3_4 : S1x16x16x1x1.BroadcastsInDim S4x16x16x253x253 (![0, 1, 2, 3, 4] : Fin 5 → Fin S4x16x16x253x253.rank)
  reducesTo_S4x16x16x253x253_S4x16x253x253_d2 : S4x16x16x253x253.ReducesTo [2] S4x16x253x253
  slices_S4x16x256x256_S4x16x253x253_0_0_0_1 : S4x16x256x256.Slices ![0, 0, 0, 1] S4x16x253x253
  slices_S16x16x4x4_S16x16x1x1_0_0_0_1 : S16x16x4x4.Slices ![0, 0, 0, 1] S16x16x1x1
  slices_S4x16x256x256_S4x16x253x253_0_0_0_2 : S4x16x256x256.Slices ![0, 0, 0, 2] S4x16x253x253
  slices_S16x16x4x4_S16x16x1x1_0_0_0_2 : S16x16x4x4.Slices ![0, 0, 0, 2] S16x16x1x1
  slices_S4x16x256x256_S4x16x253x253_0_0_0_3 : S4x16x256x256.Slices ![0, 0, 0, 3] S4x16x253x253
  slices_S16x16x4x4_S16x16x1x1_0_0_0_3 : S16x16x4x4.Slices ![0, 0, 0, 3] S16x16x1x1
  slices_S4x16x256x256_S4x16x253x253_0_0_1_0 : S4x16x256x256.Slices ![0, 0, 1, 0] S4x16x253x253
  slices_S16x16x4x4_S16x16x1x1_0_0_1_0 : S16x16x4x4.Slices ![0, 0, 1, 0] S16x16x1x1
  slices_S4x16x256x256_S4x16x253x253_0_0_1_1 : S4x16x256x256.Slices ![0, 0, 1, 1] S4x16x253x253
  slices_S16x16x4x4_S16x16x1x1_0_0_1_1 : S16x16x4x4.Slices ![0, 0, 1, 1] S16x16x1x1
  slices_S4x16x256x256_S4x16x253x253_0_0_1_2 : S4x16x256x256.Slices ![0, 0, 1, 2] S4x16x253x253
  slices_S16x16x4x4_S16x16x1x1_0_0_1_2 : S16x16x4x4.Slices ![0, 0, 1, 2] S16x16x1x1
  slices_S4x16x256x256_S4x16x253x253_0_0_1_3 : S4x16x256x256.Slices ![0, 0, 1, 3] S4x16x253x253
  slices_S16x16x4x4_S16x16x1x1_0_0_1_3 : S16x16x4x4.Slices ![0, 0, 1, 3] S16x16x1x1
  slices_S4x16x256x256_S4x16x253x253_0_0_2_0 : S4x16x256x256.Slices ![0, 0, 2, 0] S4x16x253x253
  slices_S16x16x4x4_S16x16x1x1_0_0_2_0 : S16x16x4x4.Slices ![0, 0, 2, 0] S16x16x1x1
  slices_S4x16x256x256_S4x16x253x253_0_0_2_1 : S4x16x256x256.Slices ![0, 0, 2, 1] S4x16x253x253
  slices_S16x16x4x4_S16x16x1x1_0_0_2_1 : S16x16x4x4.Slices ![0, 0, 2, 1] S16x16x1x1
  slices_S4x16x256x256_S4x16x253x253_0_0_2_2 : S4x16x256x256.Slices ![0, 0, 2, 2] S4x16x253x253
  slices_S16x16x4x4_S16x16x1x1_0_0_2_2 : S16x16x4x4.Slices ![0, 0, 2, 2] S16x16x1x1
  slices_S4x16x256x256_S4x16x253x253_0_0_2_3 : S4x16x256x256.Slices ![0, 0, 2, 3] S4x16x253x253
  slices_S16x16x4x4_S16x16x1x1_0_0_2_3 : S16x16x4x4.Slices ![0, 0, 2, 3] S16x16x1x1
  slices_S4x16x256x256_S4x16x253x253_0_0_3_0 : S4x16x256x256.Slices ![0, 0, 3, 0] S4x16x253x253
  slices_S16x16x4x4_S16x16x1x1_0_0_3_0 : S16x16x4x4.Slices ![0, 0, 3, 0] S16x16x1x1
  slices_S4x16x256x256_S4x16x253x253_0_0_3_1 : S4x16x256x256.Slices ![0, 0, 3, 1] S4x16x253x253
  slices_S16x16x4x4_S16x16x1x1_0_0_3_1 : S16x16x4x4.Slices ![0, 0, 3, 1] S16x16x1x1
  slices_S4x16x256x256_S4x16x253x253_0_0_3_2 : S4x16x256x256.Slices ![0, 0, 3, 2] S4x16x253x253
  slices_S16x16x4x4_S16x16x1x1_0_0_3_2 : S16x16x4x4.Slices ![0, 0, 3, 2] S16x16x1x1
  slices_S4x16x256x256_S4x16x253x253_0_0_3_3 : S4x16x256x256.Slices ![0, 0, 3, 3] S4x16x253x253
  slices_S16x16x4x4_S16x16x1x1_0_0_3_3 : S16x16x4x4.Slices ![0, 0, 3, 3] S16x16x1x1

variable [Facts₀]

class Facts : Prop extends Facts₀ where

variable [Facts]
-- ==== Proof.TropicalConv.lean ====
/-
  The max-times ("tropical") convolution, as ONE function of a padded input and a filter bank.

  For a padded input `xp` of shape [4, 16, 256, 256] and filters `w` of shape [16, 16, 4, 4] the result at
  (b, o, r, s), r and s below 253, is

      max ( ℓ , max over the 16 taps (i, j) of  ( max over the 16 channels c of  xp[b, c, r+i, s+j] · w[o, c, i, j] ) )

  on the extended reals, where ℓ is the value of the pattern 0xFF7FFFFF (the most negative finite f32) the running
  maximum starts from, and each channel maximum starts from the value of 0xFF800000 (−∞). The taps are taken in
  row-major order of (i, j) and the running maximum is a left fold, so that both programs' texts are this term
  literally; nothing here depends on the order, and no value is ever evaluated: the two patterns stay patterns.
-/
import Idealize.ShloMosaic.PureOps.Ideal
import Idealize.ShloMosaic.PureOps.Ideal.Laws
import Idealize.ShloMosaic.Lib.ValueIdx

noncomputable section

namespace Cert.TropicalConv

open Idealize.ShloMosaic Idealize.ShloMosaic.ValueIdx

/-- The padded input's shape, the filter bank's, the result's. -/
abbrev SPad : Shape := ⟨4, ![4, 16, 256, 256]⟩
abbrev SFil : Shape := ⟨4, ![16, 16, 4, 4]⟩
abbrev SOut : Shape := ⟨4, ![4, 16, 253, 253]⟩

/-- Row (or column) `r` of the result moved by tap offset `i` is a row (column) of the padded input: 252 + 3 < 256. -/
def shift (r : Fin 253) (i : Fin 4) : Fin 256 := ⟨r.val + i.val, by have := r.isLt; have := i.isLt; omega⟩

@[simp] theorem shift_val (r : Fin 253) (i : Fin 4) : (shift r i).val = r.val + i.val := rfl

/-- ONE TAP: the maximum over the 16 input channels of input times filter weight, from −∞. -/
def tap (xp : FVec Ideal SPad .f32) (w : FVec Ideal SFil .f32) (b : Fin 4) (o : Fin 16) (r s : Fin 253) (i j : Fin 4) : EReal :=
  (Finset.univ : Finset (Fin 16)).fold max (Ideal.ofBits .f32 0xFF800000#32)
    (fun c => xp (ix4 b c (shift r i) (shift s j)) * w (ix4 o c i j))

/-- The 16 taps of the 4 × 4 footprint, row-major. -/
def taps : List (Fin 4 × Fin 4) :=
  [(0, 0), (0, 1), (0, 2), (0, 3), (1, 0), (1, 1), (1, 2), (1, 3), (2, 0), (2, 1), (2, 2), (2, 3), (3, 0), (3, 1), (3, 2), (3, 3)]

/-- THE RESULT at (b, o, r, s): the running maximum over the taps, from the most negative finite f32. -/
def at4 (xp : FVec Ideal SPad .f32) (w : FVec Ideal SFil .f32) (b : Fin 4) (o : Fin 16) (r s : Fin 253) : EReal :=
  taps.foldl (fun acc p => max acc (tap xp w b o r s p.1 p.2)) (Ideal.ofBits .f32 0xFF7FFFFF#32)

/-- The whole result array. -/
def conv (xp : FVec Ideal SPad .f32) (w : FVec Ideal SFil .f32) : FVec Ideal SOut .f32 :=
  fun q => at4 xp w (q 0) (q 1) (q 2) (q 3)

/-- The running maximum written out: sixteen nested `max`es, the form both programs' texts have. -/
theorem at4_unfold (xp : FVec Ideal SPad .f32) (w : FVec Ideal SFil .f32) (b : Fin 4) (o : Fin 16) (r s : Fin 253) :
    at4 xp w b o r s =
      max (max (max (max (max (max (max (max (max (max (max (max (max (max (max (max (Ideal.ofBits .f32 0xFF7FFFFF#32)
        (tap xp w b o r s 0 0)) (tap xp w b o r s 0 1)) (tap xp w b o r s 0 2)) (tap xp w b o r s 0 3))
        (tap xp w b o r s 1 0)) (tap xp w b o r s 1 1)) (tap xp w b o r s 1 2)) (tap xp w b o r s 1 3))
        (tap xp w b o r s 2 0)) (tap xp w b o r s 2 1)) (tap xp w b o r s 2 2)) (tap xp w b o r s 2 3))
        (tap xp w b o r s 3 0)) (tap xp w b o r s 3 1)) (tap xp w b o r s 3 2)) (tap xp w b o r s 3 3) := rfl

end Cert.TropicalConv

end
-- ==== Proof.KernelTap.lean ====
/-
  One tap of the kernel body, read at an index.

  The body takes a [1, 16, 253, 253] window `P` of the padded input block and a [1, 16, 1, 1] column `Q` of the filter
  block, drops the unit axis of `P`, re-lays `Q` as [16] and then [16, 1, 1], broadcasts it over the 253 × 253 plane,
  multiplies, and takes the maximum over the 16 channels from −∞. At (r, s) that is the maximum over the channels `c` of
  `P[0, c, r, s] · Q[0, c, 0, 0]`: the shape casts keep row-major positions, the broadcast reads its unit axes at 0,
  and a one-axis maximum at the ideal values is the fold of `max` over that axis's coordinates.
-/
import proofs.«162296_j11940009082933_1_alg».proof.Proof.TropicalConv
import Idealize.ShloMosaic.Lib.Pipeline.Value

noncomputable section

namespace Cert.TropicalConv

open Idealize.ShloMosaic Idealize.ShloMosaic.ValueIdx

/-- The maximum over the leading (channel) axis of a [16, 253, 253] array, from −∞, at (r, s): the fold of `max` over the
    channels `c` of the array at (c, r, s). -/
theorem chanMax_apply (src : FVec Ideal ⟨3, ![16, 253, 253]⟩ .f32)
    (h5 : (⟨3, ![16, 253, 253]⟩ : Shape).Reduces [0] ⟨2, ![253, 253]⟩)
    (hφ : FKind.Formats .f32) (hacc : (0xFF800000#32 : BitVec 32) = FKind.maximumf.neutral .f32 hφ)
    (r s : Fin 253) :
    multiReduction .maximumf [0] ⟨2, ![253, 253]⟩ src 0xFF800000#32 h5 hφ hacc (ix2 r s)
      = (Finset.univ : Finset (Fin 16)).fold max (Ideal.ofBits .f32 0xFF800000#32) (fun c => src (ix3 c r s)) := by
  have h := Ideal.multiReduction_maximumf_single src 0xFF800000#32 h5 hφ hacc (ix2 r s)
  refine h.trans ?_
  refine congrArg (fun f => (Finset.univ : Finset (Fin 16)).fold max (Ideal.ofBits .f32 0xFF800000#32) f) ?_
  funext c
  show src (h5.lift (ix2 r s) c) = src (ix3 c r s)
  refine congrArg src ?_
  funext a
  apply Fin.ext
  match a with
  | ⟨0, _⟩ => rfl
  | ⟨1, _⟩ => rfl
  | ⟨2, _⟩ => rfl

/-- The window with its unit axis dropped, at (c, r, s). -/
theorem window_apply (P : FVec Ideal ⟨4, ![1, 16, 253, 253]⟩ .f32)
    (h1 : (⟨4, ![1, 16, 253, 253]⟩ : Shape).ShapeCasts ⟨3, ![16, 253, 253]⟩) (c : Fin 16) (r s : Fin 253) :
    shapeCast ⟨3, ![16, 253, 253]⟩ P h1 (ix3 c r s) = P (ix4 0 c r s) :=
  shapeCast_apply P h1 (ix3 c r s) (ix4 0 c r s) (by
    rw [Shape.rowMajor_val_four, Shape.rowMajor_val_three]
    show ((0 * 16 + c.val) * 253 + r.val) * 253 + s.val = (c.val * 253 + r.val) * 253 + s.val
    omega)

/-- The filter column re-laid as [16], then [16, 1, 1], then broadcast over the plane, at (c, r, s): its entry for channel `c`. -/
theorem column_apply (Q : FVec Ideal ⟨4, ![1, 16, 1, 1]⟩ .f32)
    (h2 : (⟨4, ![1, 16, 1, 1]⟩ : Shape).ShapeCasts ⟨1, ![16]⟩)
    (h3 : (⟨1, ![16]⟩ : Shape).ShapeCasts ⟨3, ![16, 1, 1]⟩)
    (h4 : (⟨3, ![16, 1, 1]⟩ : Shape).Broadcasts ⟨3, ![16, 253, 253]⟩) (c : Fin 16) (r s : Fin 253) :
    broadcastTo ⟨3, ![16, 253, 253]⟩ (shapeCast ⟨3, ![16, 1, 1]⟩ (shapeCast ⟨1, ![16]⟩ Q h2) h3) h4 (ix3 c r s)
      = Q (ix4 0 c 0 0) := by
  refine (broadcastTo_apply _ h4 (ix3 c r s) (ix3 c 0 0) (fun a => ?_)).trans ?_
  · match a with
    | ⟨0, _⟩ => show c.val = if (16 : Nat) = 1 then 0 else c.val; rw [if_neg (by decide)]
    | ⟨1, _⟩ => show 0 = if (1 : Nat) = 1 then 0 else r.val; rw [if_pos rfl]
    | ⟨2, _⟩ => show 0 = if (1 : Nat) = 1 then 0 else s.val; rw [if_pos rfl]
  refine (shapeCast_apply _ h3 (ix3 c 0 0) (ix1 c) (by
    rw [Shape.rowMajor_val_one, Shape.rowMajor_val_three]
    show c.val = (c.val * 1 + 0) * 1 + 0
    omega)).trans ?_
  exact shapeCast_apply Q h2 (ix1 c) (ix4 0 c 0 0) (by
    rw [Shape.rowMajor_val_four, Shape.rowMajor_val_one]
    show ((0 * 16 + c.val) * 1 + 0) * 1 + 0 = c.val
    omega)

/-- The channel maximum of one tap at (r, s), over the loaded window and the loaded filter column. -/
theorem bodyTap_apply (P : FVec Ideal ⟨4, ![1, 16, 253, 253]⟩ .f32) (Q : FVec Ideal ⟨4, ![1, 16, 1, 1]⟩ .f32)
    (h1 : (⟨4, ![1, 16, 253, 253]⟩ : Shape).ShapeCasts ⟨3, ![16, 253, 253]⟩)
    (h2 : (⟨4, ![1, 16, 1, 1]⟩ : Shape).ShapeCasts ⟨1, ![16]⟩)
    (h3 : (⟨1, ![16]⟩ : Shape).ShapeCasts ⟨3, ![16, 1, 1]⟩)
    (h4 : (⟨3, ![16, 1, 1]⟩ : Shape).Broadcasts ⟨3, ![16, 253, 253]⟩)
    (h5 : (⟨3, ![16, 253, 253]⟩ : Shape).Reduces [0] ⟨2, ![253, 253]⟩)
    (hφ : FKind.Formats .f32) (hacc : (0xFF800000#32 : BitVec 32) = FKind.maximumf.neutral .f32 hφ)
    (r s : Fin 253) :
    multiReduction .maximumf [0] ⟨2, ![253, 253]⟩
        (mulf (shapeCast ⟨3, ![16, 253, 253]⟩ P h1)
          (broadcastTo ⟨3, ![16, 253, 253]⟩ (shapeCast ⟨3, ![16, 1, 1]⟩ (shapeCast ⟨1, ![16]⟩ Q h2) h3) h4))
        0xFF800000#32 h5 hφ hacc (ix2 r s)
      = (Finset.univ : Finset (Fin 16)).fold max (Ideal.ofBits .f32 0xFF800000#32)
          (fun c => P (ix4 0 c r s) * Q (ix4 0 c 0 0)) := by
  refine (chanMax_apply (mulf (shapeCast ⟨3, ![16, 253, 253]⟩ P h1)
    (broadcastTo ⟨3, ![16, 253, 253]⟩ (shapeCast ⟨3, ![16, 1, 1]⟩ (shapeCast ⟨1, ![16]⟩ Q h2) h3) h4)) h5 hφ hacc r s).trans ?_
  refine congrArg (fun f => (Finset.univ : Finset (Fin 16)).fold max (Ideal.ofBits .f32 0xFF800000#32) f) ?_
  funext c
  show shapeCast ⟨3, ![16, 253, 253]⟩ P h1 (ix3 c r s)
      * broadcastTo ⟨3, ![16, 253, 253]⟩ (shapeCast ⟨3, ![16, 1, 1]⟩ (shapeCast ⟨1, ![16]⟩ Q h2) h3) h4 (ix3 c r s) = _
  rw [window_apply P h1 c r s, column_apply Q h2 h3 h4 c r s]

end Cert.TropicalConv

end
-- ==== Proof.KernelBlock.lean ====
/-
  What the kernel body leaves in its output block, index by index.

  At a grid point the body finds a [1, 16, 256, 256] block `x0` of the padded input (one batch entry, all channels) and a
  [1, 16, 4, 4] block `x1` of the filters (one output channel), and stores a [1, 1, 253, 253] block. For each tap (i, j) it
  loads the 253 × 253 window of `x0` at offset (i, j) and the column of `x1` at (i, j); a load through a rectangle reads the
  block at the rectangle's offset plus the index. So if `x0` is batch entry `b` of an array `xp` and `x1` is output channel `o`
  of an array `w`, the stored block at (0, 0, r, s) is the specification's value at (b, o, r, s): the sixteen taps' channel
  maxima under the running maximum, in the same order.
-/
import proofs.«162296_j11940009082933_1_alg».proof.Proof.Gen.KernelIdeal.Value
import proofs.«162296_j11940009082933_1_alg».proof.Proof.KernelTap

noncomputable section

namespace Cert.KernelIdeal.Block

open Cert.KernelIdeal Cert.KernelIdeal.Gen Idealize.ShloMosaic Idealize.ShloMosaic.ValueIdx Cert.TropicalConv

/-- The 253 × 253 window at offset (i, j) of the staged input block, at (0, c, r, s): the block at (0, c, r+i, s+j). -/
theorem ld_window (x0 : Vec Ideal S1x16x256x256 .f32) (i j : Fin 4)
    (inb : ∀ a, (![0, 0, i.val, j.val] : Fin 4 → Nat) a + S1x16x253x253.size a ≤ S1x16x256x256.size a)
    (c : Fin 16) (r s : Fin 253) :
    View.ld x0 (Rect.unit (s := S1x16x256x256) ![0, 0, i.val, j.val] S1x16x253x253.size inb) (ix4 0 c r s)
      = x0 (ix4 0 c (shift r i) (shift s j)) := by
  show x0 ((Rect.unit (s := S1x16x256x256) ![0, 0, i.val, j.val] S1x16x253x253.size inb).emb (ix4 0 c r s)) = _
  refine congrArg x0 ?_
  funext a
  apply Fin.ext
  match a with
  | ⟨0, _⟩ => show 0 + 1 * 0 = 0; omega
  | ⟨1, _⟩ => show 0 + 1 * c.val = c.val; omega
  | ⟨2, _⟩ => show i.val + 1 * r.val = r.val + i.val; omega
  | ⟨3, _⟩ => show j.val + 1 * s.val = s.val + j.val; omega

/-- The column at (i, j) of the staged filter block, at (0, c, 0, 0): the block at (0, c, i, j). -/
theorem ld_column (x1 : Vec Ideal S1x16x4x4 .f32) (i j : Fin 4)
    (inb : ∀ a, (![0, 0, i.val, j.val] : Fin 4 → Nat) a + S1x16x1x1.size a ≤ S1x16x4x4.size a) (c : Fin 16) :
    View.ld x1 (Rect.unit (s := S1x16x4x4) ![0, 0, i.val, j.val] S1x16x1x1.size inb) (ix4 0 c 0 0)
      = x1 (ix4 0 c i j) := by
  show x1 ((Rect.unit (s := S1x16x4x4) ![0, 0, i.val, j.val] S1x16x1x1.size inb).emb (ix4 0 c 0 0)) = _
  refine congrArg x1 ?_
  funext a
  apply Fin.ext
  match a with
  | ⟨0, _⟩ => show 0 + 1 * 0 = 0; omega
  | ⟨1, _⟩ => show 0 + 1 * c.val = c.val; omega
  | ⟨2, _⟩ => show i.val + 1 * 0 = i.val; omega
  | ⟨3, _⟩ => show j.val + 1 * 0 = j.val; omega

/-- One step of the running maximum: the vector unit's maximum of two values is `max` of what they are. -/
theorem max_step {a a' b' c' : EReal} (ha : a = a') (hb : b' = c') :
    FloatOps.maximumf (F := Ideal) (φ := .f32) a b' = max a' c' := by
  subst ha; subst hb; rfl

variable (xp : FVec Ideal SPad .f32) (w : FVec Ideal SFil .f32)
  (x0 : Vec Ideal S1x16x256x256 .f32) (x1 : Vec Ideal S1x16x4x4 .f32) (b : Fin 4) (o : Fin 16)
  (h0 : ∀ (c : Fin 16) (r' s' : Fin 256), x0 (ix4 0 c r' s') = xp (ix4 b c r' s'))
  (h1 : ∀ (c : Fin 16) (i j : Fin 4), x1 (ix4 0 c i j) = w (ix4 o c i j))
include h0 h1

/-- ONE TAP of the body over the staged blocks, at (r, s), is the specification's tap at (b, o, r, s). -/
theorem blockTap (i j : Fin 4)
    (inb0 : ∀ a, (![0, 0, i.val, j.val] : Fin 4 → Nat) a + S1x16x253x253.size a ≤ S1x16x256x256.size a)
    (inb1 : ∀ a, (![0, 0, i.val, j.val] : Fin 4 → Nat) a + S1x16x1x1.size a ≤ S1x16x4x4.size a)
    (r s : Fin 253) (y : S253x253.Idx) (hy : y = ix2 r s) :
    multiReduction (F := Ideal) .maximumf [0] S253x253
        (mulf (shapeCast S16x253x253 (View.ld x0 (Rect.unit (s := S1x16x256x256) ![0, 0, i.val, j.val] S1x16x253x253.size inb0))
            shapeCasts_S1x16x253x253_S16x253x253)
          (broadcastTo S16x253x253 (shapeCast S16x1x1 (shapeCast S16
            (View.ld x1 (Rect.unit (s := S1x16x4x4) ![0, 0, i.val, j.val] S1x16x1x1.size inb1)) shapeCasts_S1x16x1x1_S16)
            shapeCasts_S16_S16x1x1) broadcasts_S16x1x1_S16x253x253))
        0xFF800000#32 reduces_S16x253x253_S253x253 (.inl rfl) rfl y
      = tap xp w b o r s i j := by
  subst hy
  refine (bodyTap_apply (View.ld x0 (Rect.unit (s := S1x16x256x256) ![0, 0, i.val, j.val] S1x16x253x253.size inb0))
    (View.ld x1 (Rect.unit (s := S1x16x4x4) ![0, 0, i.val, j.val] S1x16x1x1.size inb1))
    shapeCasts_S1x16x253x253_S16x253x253 shapeCasts_S1x16x1x1_S16 shapeCasts_S16_S16x1x1 broadcasts_S16x1x1_S16x253x253
    reduces_S16x253x253_S253x253 (.inl rfl) rfl r s).trans ?_
  unfold tap
  refine congrArg (fun f => (Finset.univ : Finset (Fin 16)).fold max (Ideal.ofBits .f32 0xFF800000#32) f) ?_
  funext c
  exact congrArg₂ (· * ·) ((ld_window x0 i j inb0 c r s).trans (h0 c (shift r i) (shift s j)))
    ((ld_column x1 i j inb1 c).trans (h1 c i j))

/-- THE STORED BLOCK at (0, 0, r, s) is the specification at (b, o, r, s). -/
theorem out_block (r s : Fin 253) : out0_2 x0 x1 (ix4 0 0 r s) = at4 xp w b o r s := by
  unfold out0_2
  refine (Value.canon2_eq (View.ld x0 r0_0) (View.ld x1 r0_1) (View.ld x0 r0_2) (View.ld x1 r0_3) (View.ld x0 r0_4) (View.ld x1 r0_5) (View.ld x0 r0_6) (View.ld x1 r0_7) (View.ld x0 r0_8) (View.ld x1 r0_9) (View.ld x0 r0_10) (View.ld x1 r0_11) (View.ld x0 r0_12) (View.ld x1 r0_13) (View.ld x0 r0_14) (View.ld x1 r0_15) (View.ld x0 r0_16) (View.ld x1 r0_17) (View.ld x0 r0_18) (View.ld x1 r0_19) (View.ld x0 r0_20) (View.ld x1 r0_21) (View.ld x0 r0_22) (View.ld x1 r0_23) (View.ld x0 r0_24) (View.ld x1 r0_25) (View.ld x0 r0_26) (View.ld x1 r0_27) (View.ld x0 r0_28) (View.ld x1 r0_29) (View.ld x0 r0_30) (View.ld x1 r0_31) (ix4 0 0 r s)).trans ?_
  rw [at4_unfold]
  exact max_step (max_step (max_step (max_step (max_step (max_step (max_step (max_step (max_step (max_step (max_step (max_step (max_step (max_step (max_step (max_step (rfl : (Scalar.ofBits .f32 0xFF7FFFFF#32 : Ideal .f32) = Ideal.ofBits .f32 0xFF7FFFFF#32)
    (blockTap xp w x0 x1 b o h0 h1 0 0 _ _ r s _ (funext fun a => match a with | ⟨0, _⟩ => rfl | ⟨1, _⟩ => rfl)))
    (blockTap xp w x0 x1 b o h0 h1 0 1 _ _ r s _ (funext fun a => match a with | ⟨0, _⟩ => rfl | ⟨1, _⟩ => rfl)))
    (blockTap xp w x0 x1 b o h0 h1 0 2 _ _ r s _ (funext fun a => match a with | ⟨0, _⟩ => rfl | ⟨1, _⟩ => rfl)))
    (blockTap xp w x0 x1 b o h0 h1 0 3 _ _ r s _ (funext fun a => match a with | ⟨0, _⟩ => rfl | ⟨1, _⟩ => rfl)))
    (blockTap xp w x0 x1 b o h0 h1 1 0 _ _ r s _ (funext fun a => match a with | ⟨0, _⟩ => rfl | ⟨1, _⟩ => rfl)))
    (blockTap xp w x0 x1 b o h0 h1 1 1 _ _ r s _ (funext fun a => match a with | ⟨0, _⟩ => rfl | ⟨1, _⟩ => rfl)))
    (blockTap xp w x0 x1 b o h0 h1 1 2 _ _ r s _ (funext fun a => match a with | ⟨0, _⟩ => rfl | ⟨1, _⟩ => rfl)))
    (blockTap xp w x0 x1 b o h0 h1 1 3 _ _ r s _ (funext fun a => match a with | ⟨0, _⟩ => rfl | ⟨1, _⟩ => rfl)))
    (blockTap xp w x0 x1 b o h0 h1 2 0 _ _ r s _ (funext fun a => match a with | ⟨0, _⟩ => rfl | ⟨1, _⟩ => rfl)))
    (blockTap xp w x0 x1 b o h0 h1 2 1 _ _ r s _ (funext fun a => match a with | ⟨0, _⟩ => rfl | ⟨1, _⟩ => rfl)))
    (blockTap xp w x0 x1 b o h0 h1 2 2 _ _ r s _ (funext fun a => match a with | ⟨0, _⟩ => rfl | ⟨1, _⟩ => rfl)))
    (blockTap xp w x0 x1 b o h0 h1 2 3 _ _ r s _ (funext fun a => match a with | ⟨0, _⟩ => rfl | ⟨1, _⟩ => rfl)))
    (blockTap xp w x0 x1 b o h0 h1 3 0 _ _ r s _ (funext fun a => match a with | ⟨0, _⟩ => rfl | ⟨1, _⟩ => rfl)))
    (blockTap xp w x0 x1 b o h0 h1 3 1 _ _ r s _ (funext fun a => match a with | ⟨0, _⟩ => rfl | ⟨1, _⟩ => rfl)))
    (blockTap xp w x0 x1 b o h0 h1 3 2 _ _ r s _ (funext fun a => match a with | ⟨0, _⟩ => rfl | ⟨1, _⟩ => rfl)))
    (blockTap xp w x0 x1 b o h0 h1 3 3 _ _ r s _ (funext fun a => match a with | ⟨0, _⟩ => rfl | ⟨1, _⟩ => rfl))

end Cert.KernelIdeal.Block

end
-- ==== Proof.KernelArray.lean ====
/-
  From the blocks to the whole output array, and the kernel's run.

  The grid has 4 × 16 points, one per (batch entry, output channel). At point (b, o) the input window is batch entry `b` of
  the padded input (all channels, all rows and columns), the filter window is output channel `o` of the filters, and the
  output window is the 253 × 253 plane (b, o) of the result: the three index maps are decided once over the 64 points.
  What a point writes back is therefore the plane (b, o) of the specification of the two arrays as the region finds them
  (the stored block, index by index, is the specification there); every index (b, o, r, s) of the result lies in the plane
  of the point (b, o), which writes back; so after the run the result array IS the specification of the padded input and
  the filters. The padded input is what the host operations before the region leave: the first argument padded by two rows
  and two columns of the converted integer zero on each side; the filters are the second argument, untouched.
-/
import proofs.«162296_j11940009082933_1_alg».proof.Proof.KernelBlock
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.ValueIdx Cert.TropicalConv
open Idealize.ShloMosaic.Pipeline (Dat)

variable (m : (ℓ : Loc nD τ sig) → Buf (Elt Ideal) ℓ) (ρ : Dev nD → PrngReg)

/-! ## The index maps, decided over the grid -/

/-- At every point: the input window's block index is (the output's batch index, 0, 0, 0), the filter window's is (the
    output's channel index, 0, 0, 0), the output's last two are 0 and its first two are in range. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (1 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 4 ∧ win0_2.index t (1 : Fin 4) < 16 :=
  (by decide +kernel : ∀ t : Fin grid0.N, _)

/-- Every plane (q0, q1) of the result is some point's output block. -/
theorem idx_onto : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

/-! ## What a point writes back -/

/-- The stored block at any block index `y`, against any result index `q` with the block's plane and `y`'s row and column. -/
theorem out_block_at (xp : FVec Ideal SPad .f32) (w : FVec Ideal SFil .f32)
    (x0 : Vec Ideal S1x16x256x256 .f32) (x1 : Vec Ideal S1x16x4x4 .f32) (b : Fin 4) (o : Fin 16)
    (h0 : ∀ (c : Fin 16) (r' s' : Fin 256), x0 (ix4 0 c r' s') = xp (ix4 b c r' s'))
    (h1 : ∀ (c : Fin 16) (i j : Fin 4), x1 (ix4 0 c i j) = w (ix4 o c i j))
    (y : S1x1x253x253.Idx) (q : SOut.Idx)
    (hq0 : (q 0).val = b.val) (hq1 : (q 1).val = o.val) (hq2 : (q 2).val = (y 2).val) (hq3 : (q 3).val = (y 3).val) :
    out0_2 x0 x1 y = conv xp w q := by
  obtain ⟨y0, y1, r, s, rfl⟩ : ∃ (y0 y1 : Fin 1) (r s : Fin 253), y = ix4 y0 y1 r s := ⟨y 0, y 1, y 2, y 3, eq_ix4 y⟩
  obtain rfl : y0 = 0 := Subsingleton.elim _ _
  obtain rfl : y1 = 0 := Subsingleton.elim _ _
  have hq : q = ix4 b o r s := funext fun a => Fin.ext (match a with
    | ⟨0, _⟩ => hq0 | ⟨1, _⟩ => hq1 | ⟨2, _⟩ => hq2 | ⟨3, _⟩ => hq3)
  rw [hq]
  exact Block.out_block xp w x0 x1 b o h0 h1 r s

/-- A block of an array read back through its window is the array at the block's place: the three windows. -/
theorem read_in0 (A : FVec Ideal SPad .f32) (t : Fin cfg0.N) (y : S1x16x256x256.Idx) :
    ((cfg0.win 0).blk t).view.read (Elt Ideal) A y = A (((cfg0.win 0).blk t).view.emb y) := rfl
theorem read_in1 (W : FVec Ideal SFil .f32) (t : Fin cfg0.N) (y : S1x16x4x4.Idx) :
    ((cfg0.win 1).blk t).view.read (Elt Ideal) W y = W (((cfg0.win 1).blk t).view.emb y) := rfl
theorem read_out (G : FVec Ideal SOut .f32) (t : Fin cfg0.N) (y : S1x1x253x253.Idx) :
    ((cfg0.win 2).blk t).view.read (Elt Ideal) G y = G (((cfg0.win 2).blk t).view.emb y) := rfl

/-- AT A POINT, for ANY padded input `A` and filters `W`: the body's stored block over the point's blocks of `A` and `W` is
    the point's block of the specification of `A` and `W`. -/
theorem flushed_core (A : FVec Ideal SPad .f32) (W : FVec Ideal SFil .f32) (t : Fin cfg0.N) :
    (cfg0.win 2).cut (grid0.coords t)
        (out0_2 (((cfg0.win 0).blk t).view.read (Elt Ideal) A) (((cfg0.win 1).blk t).view.read (Elt Ideal) W))
      = ((cfg0.win 2).blk t).view.read (Elt Ideal) (conv A W) := by
  obtain ⟨e00, e01, e02, e03, e10, e11, e12, e13, e22, e23, l0, l1⟩ := idx_facts t
  funext y
  have hy0 : (y 0).val < 1 := (y 0).isLt
  have hy1 : (y 1).val < 1 := (y 1).isLt
  have hy2 : (y 2).val < 253 := (y 2).isLt
  have hy3 : (y 3).val < 253 := (y 3).isLt
  refine Eq.trans ?_ (read_out (conv A W) t y).symm
  show out0_2 (((cfg0.win 0).blk t).view.read (Elt Ideal) A) (((cfg0.win 1).blk t).view.read (Elt Ideal) W) y = _
  refine out_block_at A W (((cfg0.win 0).blk t).view.read (Elt Ideal) A) (((cfg0.win 1).blk t).view.read (Elt Ideal) W)
    ⟨win0_2.index t (0 : Fin 4), l0⟩ ⟨win0_2.index t (1 : Fin 4), l1⟩ ?_ ?_ y _ ?_ ?_ ?_ ?_
  · intro ch r' s'
    refine (read_in0 A t (ix4 0 ch r' s')).trans ?_
    refine congrArg A ?_
    funext a
    apply Fin.ext
    match a with
    | ⟨0, _⟩ => show win0_0.index t (0 : Fin 4) * 1 + 1 * 0 = win0_2.index t (0 : Fin 4); omega
    | ⟨1, _⟩ => show win0_0.index t (1 : Fin 4) * 16 + 1 * ch.val = ch.val; omega
    | ⟨2, _⟩ => show win0_0.index t (2 : Fin 4) * 256 + 1 * r'.val = r'.val; omega
    | ⟨3, _⟩ => show win0_0.index t (3 : Fin 4) * 256 + 1 * s'.val = s'.val; omega
  · intro ch i j
    refine (read_in1 W t (ix4 0 ch i j)).trans ?_
    refine congrArg W ?_
    funext a
    apply Fin.ext
    match a with
    | ⟨0, _⟩ => show win0_1.index t (0 : Fin 4) * 1 + 1 * 0 = win0_2.index t (1 : Fin 4); omega
    | ⟨1, _⟩ => show win0_1.index t (1 : Fin 4) * 16 + 1 * ch.val = ch.val; omega
    | ⟨2, _⟩ => show win0_1.index t (2 : Fin 4) * 4 + 1 * i.val = i.val; omega
    | ⟨3, _⟩ => show win0_1.index t (3 : Fin 4) * 4 + 1 * j.val = j.val; omega
  · show win0_2.index t (0 : Fin 4) * 1 + 1 * (y 0).val = win0_2.index t (0 : Fin 4); omega
  · show win0_2.index t (1 : Fin 4) * 1 + 1 * (y 1).val = win0_2.index t (1 : Fin 4); omega
  · show win0_2.index t (2 : Fin 4) * 253 + 1 * (y 2).val = (y 2).val; omega
  · show win0_2.index t (3 : Fin 4) * 253 + 1 * (y 3).val = (y 3).val; omega

/-- WHAT POINT `t` WRITES BACK is block `t` of the specification of the arrays as the region finds them. -/
theorem flushed_eq (c : Dev nD) (t : Fin cfg0.N) :
    (dats m 0 c).flushed 2 t
      = ((cfg0.win 2).blk t).view.read (Elt Ideal) (conv (V m c main_v0) (V m c main_arg1)) :=
  (Value.flushed2 m c t).trans (flushed_core (V m c main_v0) (V m c main_arg1) t)

/-! ## The blocks cover the result -/

/-- An index of the result is in point `t`'s block iff each coordinate is in the block's range on its axis. -/
theorem mem_blk (t : Fin cfg0.N) (i : S4x16x253x253.Idx) :
    i ∈ ((cfg0.win 2).blk t).view.set ↔ ∀ a : Fin 4, win0_2.index t a * S1x1x253x253.size a ≤ (i a).val
      ∧ (i a).val < win0_2.index t a * S1x1x253x253.size a + S1x1x253x253.size a := by
  show i ∈ ((View.whole main_v1).slice (win0_2.rect t)).set ↔ _
  rw [View.set_slice_whole, Rect.mem_set_unit]
  exact Iff.rfl

/-- Every index (b, o, r, s) of the result is in the block of the point whose output plane is (b, o), and that point writes back. -/
theorem cover (i : S4x16x253x253.Idx) :
    ∃ t : Fin cfg0.N, (cfg0.win 2).flush t = true ∧ i ∈ ((cfg0.win 2).blk t).view.set := by
  have hi2 : (i 2).val < 253 := (i 2).isLt
  have hi3 : (i 3).val < 253 := (i 3).isLt
  obtain ⟨t, ht⟩ := idx_onto (i 0) (i 1)
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 253 ≤ (i 2).val ∧ (i 2).val < win0_2.index t (2 : Fin 4) * 253 + 253; omega
  | ⟨3, _⟩ => show win0_2.index t (3 : Fin 4) * 253 ≤ (i 3).val ∧ (i 3).val < win0_2.index t (3 : Fin 4) * 253 + 253; omega

/-- THE RESULT ARRAY after the run: the specification of the arrays as the region finds them. -/
theorem final (c : Dev nD) : (dats m 0 c).arrAt 2 cfg0.N = conv (V m c main_v0) (V m c main_arg1) :=
  (dats m 0 c).arrAt_eq_of_cover 2 (conv (V m c main_v0) (V m c main_arg1)) (fun t _ => flushed_eq m c t) cover

/-! ## The arrays as the region finds them -/

/-- The first argument padded by two rows and two columns of the converted integer zero on each side. -/
def padded (x : FVec Ideal S4x16x252x252 .f32) : FVec Ideal S4x16x256x256 .f32 :=
  pad S4x16x256x256 ![0, 0, 2, 2] ![0, 0, 2, 2] ![0, 0, 0, 0] x (sitofp (F := Ideal) .f32 (constantI S_ 32 0#32))
    pads_S4x16x252x252_S4x16x256x256_000_000_220_220 h_S_

/-- The host operations before the region leave the padded first argument in the input window's array. -/
theorem V_main_v0 (c : Dev nD) :
    (V m c main_v0 : S4x16x256x256.Idx → EReal) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-! ## The run -/

/-- Every weakly fair execution of the kernel program terminates with the result array at the specification of the padded
    first argument and the second, the arguments unchanged. -/
theorem run : θ_run defs (onTc (τ := τ) (main (F := Ideal))) ⟨m, fun _ => 0, ρ⟩ fun r => ∀ c : Dev nD,
      r.2.mem ((c : Thread nD τ).loc main_v1)
          = conv (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_v0 m c, V_main_arg1 m c])), (h c).2⟩)
    (Value.run_blocks m ρ)

end Cert.KernelIdeal.Array

end
-- ==== Proof.ReferenceRun.lean ====
/-
  The reference program's run, read back.

  @main of the reference is a straight line of 181 host operations: the zero constant and the padding of the input by two
  rows and columns of zeros on each side; the constant the running maximum starts from, broadcast; then, sixteen times — once
  per tap (i, j) of the 4 × 4 footprint, row-major — eleven operations: the 253 × 253 window of the padded input at offset
  (i, j), the [16, 16] slice of the filters at (i, j), both broadcast to [4, 16, 16, 253, 253] (batch, output channel, input
  channel, row, column), their product, its maximum over the input-channel axis from −∞, and the maximum of that with the
  running maximum. Listed in order, the operations ARE @main (`main_eq`, by unfolding), so every weakly fair execution
  terminates with each buffer at the operations' composed value of the arguments (the library's `run_seq`): the result
  buffer at `hostOut` of the padded input and the filters — the sixteen taps' terms `hostTap` under the running maximum —
  and the arguments unchanged.
-/
import proofs.«162296_j11940009082933_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The input padded by two rows and two columns of the converted integer zero on each side. -/
def padded (x : FVec F S4x16x252x252 .f32) : FVec F S4x16x256x256 .f32 :=
  pad S4x16x256x256 ![0, 0, 2, 2] ![0, 0, 2, 2] ![0, 0, 0, 0] x (sitofp .f32 (constantI S_ 32 0#32))
    pads_S4x16x252x252_S4x16x256x256_000_000_220_220 h_S_

/-- ONE TAP (i, j), as the host computes it: window and filter slice broadcast over (batch, output channel, input channel, row,
    column), multiplied, and reduced by maximum over the input channels from −∞. -/
def hostTap (xp : FVec F S4x16x256x256 .f32) (w : FVec F S16x16x4x4 .f32) (i j : Fin 4)
    (hx : S4x16x256x256.Slices ![0, 0, i.val, j.val] S4x16x253x253)
    (hw : S16x16x4x4.Slices ![0, 0, i.val, j.val] S16x16x1x1) : FVec F S4x16x253x253 .f32 :=
  Host.reduce FloatOps.maximumf
    (mulf
      (broadcastInDim S4x16x16x253x253 ![0, 1, 2, 3, 4] bcast_S4x1x16x253x253_S4x16x16x253x253_0_1_2_3_4
        (broadcastInDim S4x1x16x253x253 ![0, 2, 3, 4] bcast_S4x16x253x253_S4x1x16x253x253_0_2_3_4
          (extractStridedSlice S4x16x253x253 ![0, 0, i.val, j.val] xp hx)))
      (broadcastInDim S4x16x16x253x253 ![0, 1, 2, 3, 4] bcast_S1x16x16x1x1_S4x16x16x253x253_0_1_2_3_4
        (broadcastInDim S1x16x16x1x1 ![1, 2] bcast_S16x16_S1x16x16x1x1_1_2
          (shapeCast S16x16 (extractStridedSlice S16x16x1x1 ![0, 0, i.val, j.val] w hw) shapeCasts_S16x16x1x1_S16x16))))
    (constant S_ .f32 0xFF800000#32) reducesTo_S4x16x16x253x253_S4x16x253x253_d2 h_S_

/-- THE RESULT as the host computes it: the running maximum over the sixteen taps from the broadcast starting constant. -/
def hostOut (xp : FVec F S4x16x256x256 .f32) (w : FVec F S16x16x4x4 .f32) : FVec F S4x16x253x253 .f32 :=
  maximumf (maximumf (maximumf (maximumf (maximumf (maximumf (maximumf (maximumf (maximumf (maximumf (maximumf (maximumf (maximumf (maximumf (maximumf (maximumf (broadcastInDim S4x16x253x253 ![] bcast_S_S4x16x253x253 (constant S_ .f32 0xFF7FFFFF#32))
    (hostTap xp w 0 0 slices_S4x16x256x256_S4x16x253x253_0_0_0_0 slices_S16x16x4x4_S16x16x1x1_0_0_0_0))
    (hostTap xp w 0 1 slices_S4x16x256x256_S4x16x253x253_0_0_0_1 slices_S16x16x4x4_S16x16x1x1_0_0_0_1))
    (hostTap xp w 0 2 slices_S4x16x256x256_S4x16x253x253_0_0_0_2 slices_S16x16x4x4_S16x16x1x1_0_0_0_2))
    (hostTap xp w 0 3 slices_S4x16x256x256_S4x16x253x253_0_0_0_3 slices_S16x16x4x4_S16x16x1x1_0_0_0_3))
    (hostTap xp w 1 0 slices_S4x16x256x256_S4x16x253x253_0_0_1_0 slices_S16x16x4x4_S16x16x1x1_0_0_1_0))
    (hostTap xp w 1 1 slices_S4x16x256x256_S4x16x253x253_0_0_1_1 slices_S16x16x4x4_S16x16x1x1_0_0_1_1))
    (hostTap xp w 1 2 slices_S4x16x256x256_S4x16x253x253_0_0_1_2 slices_S16x16x4x4_S16x16x1x1_0_0_1_2))
    (hostTap xp w 1 3 slices_S4x16x256x256_S4x16x253x253_0_0_1_3 slices_S16x16x4x4_S16x16x1x1_0_0_1_3))
    (hostTap xp w 2 0 slices_S4x16x256x256_S4x16x253x253_0_0_2_0 slices_S16x16x4x4_S16x16x1x1_0_0_2_0))
    (hostTap xp w 2 1 slices_S4x16x256x256_S4x16x253x253_0_0_2_1 slices_S16x16x4x4_S16x16x1x1_0_0_2_1))
    (hostTap xp w 2 2 slices_S4x16x256x256_S4x16x253x253_0_0_2_2 slices_S16x16x4x4_S16x16x1x1_0_0_2_2))
    (hostTap xp w 2 3 slices_S4x16x256x256_S4x16x253x253_0_0_2_3 slices_S16x16x4x4_S16x16x1x1_0_0_2_3))
    (hostTap xp w 3 0 slices_S4x16x256x256_S4x16x253x253_0_0_3_0 slices_S16x16x4x4_S16x16x1x1_0_0_3_0))
    (hostTap xp w 3 1 slices_S4x16x256x256_S4x16x253x253_0_0_3_1 slices_S16x16x4x4_S16x16x1x1_0_0_3_1))
    (hostTap xp w 3 2 slices_S4x16x256x256_S4x16x253x253_0_0_3_2 slices_S16x16x4x4_S16x16x1x1_0_0_3_2))
    (hostTap xp w 3 3 slices_S4x16x256x256_S4x16x253x253_0_0_3_3 slices_S16x16x4x4_S16x16x1x1_0_0_3_3)

/-! ## The program as its list of operations -/

set_option maxRecDepth 8192 in
set_option maxHeartbeats 8000000 in
/-- @main's 181 operations, in order (the padding function's two operations stand in its call's place). -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x16x252x252, .f32⟩) main_arg0) (TRef.of (T := ⟨S_, .f32⟩) main_call0_v0) (TRef.of (T := ⟨S4x16x256x256, .f32⟩) main_v0) (fun x v => pad S4x16x256x256 ![0, 0, 2, 2] ![0, 0, 2, 2] ![0, 0, 0, 0] x v pads_S4x16x252x252_S4x16x256x256_000_000_220_220 h_S_),
    nullary main_cst (constant S_ .f32 0xFF7FFFFF#32),
    unary main_cst main_v1 (broadcastInDim S4x16x253x253 ![] bcast_S_S4x16x253x253 : (⟨S_, .f32⟩ : BufTy).Contents (Elt F) → (⟨S4x16x253x253, .f32⟩ : BufTy).Contents (Elt F)),
    unary main_v0 main_v2 ((extractStridedSlice S4x16x253x253 ![0, 0, 0, 0] · slices_S4x16x256x256_S4x16x253x253_0_0_0_0) : (⟨S4x16x256x256, .f32⟩ : BufTy).Contents (Elt F) → (⟨S4x16x253x253, .f32⟩ : BufTy).Contents (Elt F)),
    unary main_arg1 main_v3 ((extractStridedSlice S16x16x1x1 ![0, 0, 0, 0] · slices_S16x16x4x4_S16x16x1x1_0_0_0_0) : (⟨S16x16x4x4, .f32⟩ : BufTy).Contents (Elt F) → (⟨S16x16x1x1, .f32⟩ : BufTy).Contents (Elt F)),
    reshape main_v3 main_v4 rfl shapeCasts_S16x16x1x1_S16x16,
    unary main_v2 main_v5 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v4 main_v6 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v5 main_v7 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v6 main_v8 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v7 main_v8 main_v9 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_0 (constant S_ .f32 0xFF800000#32),
    binary main_v9 main_cst_0 main_v10 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v1 main_v10 main_v11 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v12 ((extractStridedSlice S4x16x253x253 ![0, 0, 0, 1] · slices_S4x16x256x256_S4x16x253x253_0_0_0_1) : (⟨S4x16x256x256, .f32⟩ : BufTy).Contents (Elt F) → (⟨S4x16x253x253, .f32⟩ : BufTy).Contents (Elt F)),
    unary main_arg1 main_v13 ((extractStridedSlice S16x16x1x1 ![0, 0, 0, 1] · slices_S16x16x4x4_S16x16x1x1_0_0_0_1) : (⟨S16x16x4x4, .f32⟩ : BufTy).Contents (Elt F) → (⟨S16x16x1x1, .f32⟩ : BufTy).Contents (Elt F)),
    reshape main_v13 main_v14 rfl shapeCasts_S16x16x1x1_S16x16,
    unary main_v12 main_v15 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v14 main_v16 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v15 main_v17 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v16 main_v18 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v17 main_v18 main_v19 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_1 (constant S_ .f32 0xFF800000#32),
    binary main_v19 main_cst_1 main_v20 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v11 main_v20 main_v21 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v22 ((extractStridedSlice S4x16x253x253 ![0, 0, 0, 2] · slices_S4x16x256x256_S4x16x253x253_0_0_0_2) : (⟨S4x16x256x256, .f32⟩ : BufTy).Contents (Elt F) → (⟨S4x16x253x253, .f32⟩ : BufTy).Contents (Elt F)),
    unary main_arg1 main_v23 ((extractStridedSlice S16x16x1x1 ![0, 0, 0, 2] · slices_S16x16x4x4_S16x16x1x1_0_0_0_2) : (⟨S16x16x4x4, .f32⟩ : BufTy).Contents (Elt F) → (⟨S16x16x1x1, .f32⟩ : BufTy).Contents (Elt F)),
    reshape main_v23 main_v24 rfl shapeCasts_S16x16x1x1_S16x16,
    unary main_v22 main_v25 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v24 main_v26 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v25 main_v27 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v26 main_v28 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v27 main_v28 main_v29 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_2 (constant S_ .f32 0xFF800000#32),
    binary main_v29 main_cst_2 main_v30 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v21 main_v30 main_v31 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v32 ((extractStridedSlice S4x16x253x253 ![0, 0, 0, 3] · slices_S4x16x256x256_S4x16x253x253_0_0_0_3) : (⟨S4x16x256x256, .f32⟩ : BufTy).Contents (Elt F) → (⟨S4x16x253x253, .f32⟩ : BufTy).Contents (Elt F)),
    unary main_arg1 main_v33 ((extractStridedSlice S16x16x1x1 ![0, 0, 0, 3] · slices_S16x16x4x4_S16x16x1x1_0_0_0_3) : (⟨S16x16x4x4, .f32⟩ : BufTy).Contents (Elt F) → (⟨S16x16x1x1, .f32⟩ : BufTy).Contents (Elt F)),
    reshape main_v33 main_v34 rfl shapeCasts_S16x16x1x1_S16x16,
    unary main_v32 main_v35 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v34 main_v36 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v35 main_v37 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v36 main_v38 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v37 main_v38 main_v39 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_3 (constant S_ .f32 0xFF800000#32),
    binary main_v39 main_cst_3 main_v40 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v31 main_v40 main_v41 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v42 ((extractStridedSlice S4x16x253x253 ![0, 0, 1, 0] · slices_S4x16x256x256_S4x16x253x253_0_0_1_0) : (⟨S4x16x256x256, .f32⟩ : BufTy).Contents (Elt F) → (⟨S4x16x253x253, .f32⟩ : BufTy).Contents (Elt F)),
    unary main_arg1 main_v43 ((extractStridedSlice S16x16x1x1 ![0, 0, 1, 0] · slices_S16x16x4x4_S16x16x1x1_0_0_1_0) : (⟨S16x16x4x4, .f32⟩ : BufTy).Contents (Elt F) → (⟨S16x16x1x1, .f32⟩ : BufTy).Contents (Elt F)),
    reshape main_v43 main_v44 rfl shapeCasts_S16x16x1x1_S16x16,
    unary main_v42 main_v45 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v44 main_v46 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v45 main_v47 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v46 main_v48 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v47 main_v48 main_v49 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_4 (constant S_ .f32 0xFF800000#32),
    binary main_v49 main_cst_4 main_v50 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v41 main_v50 main_v51 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v52 ((extractStridedSlice S4x16x253x253 ![0, 0, 1, 1] · slices_S4x16x256x256_S4x16x253x253_0_0_1_1) : (⟨S4x16x256x256, .f32⟩ : BufTy).Contents (Elt F) → (⟨S4x16x253x253, .f32⟩ : BufTy).Contents (Elt F)),
    unary main_arg1 main_v53 ((extractStridedSlice S16x16x1x1 ![0, 0, 1, 1] · slices_S16x16x4x4_S16x16x1x1_0_0_1_1) : (⟨S16x16x4x4, .f32⟩ : BufTy).Contents (Elt F) → (⟨S16x16x1x1, .f32⟩ : BufTy).Contents (Elt F)),
    reshape main_v53 main_v54 rfl shapeCasts_S16x16x1x1_S16x16,
    unary main_v52 main_v55 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v54 main_v56 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v55 main_v57 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v56 main_v58 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v57 main_v58 main_v59 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_5 (constant S_ .f32 0xFF800000#32),
    binary main_v59 main_cst_5 main_v60 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v51 main_v60 main_v61 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v62 ((extractStridedSlice S4x16x253x253 ![0, 0, 1, 2] · slices_S4x16x256x256_S4x16x253x253_0_0_1_2) : (⟨S4x16x256x256, .f32⟩ : BufTy).Contents (Elt F) → (⟨S4x16x253x253, .f32⟩ : BufTy).Contents (Elt F)),
    unary main_arg1 main_v63 ((extractStridedSlice S16x16x1x1 ![0, 0, 1, 2] · slices_S16x16x4x4_S16x16x1x1_0_0_1_2) : (⟨S16x16x4x4, .f32⟩ : BufTy).Contents (Elt F) → (⟨S16x16x1x1, .f32⟩ : BufTy).Contents (Elt F)),
    reshape main_v63 main_v64 rfl shapeCasts_S16x16x1x1_S16x16,
    unary main_v62 main_v65 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v64 main_v66 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v65 main_v67 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v66 main_v68 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v67 main_v68 main_v69 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_6 (constant S_ .f32 0xFF800000#32),
    binary main_v69 main_cst_6 main_v70 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v61 main_v70 main_v71 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v72 ((extractStridedSlice S4x16x253x253 ![0, 0, 1, 3] · slices_S4x16x256x256_S4x16x253x253_0_0_1_3) : (⟨S4x16x256x256, .f32⟩ : BufTy).Contents (Elt F) → (⟨S4x16x253x253, .f32⟩ : BufTy).Contents (Elt F)),
    unary main_arg1 main_v73 ((extractStridedSlice S16x16x1x1 ![0, 0, 1, 3] · slices_S16x16x4x4_S16x16x1x1_0_0_1_3) : (⟨S16x16x4x4, .f32⟩ : BufTy).Contents (Elt F) → (⟨S16x16x1x1, .f32⟩ : BufTy).Contents (Elt F)),
    reshape main_v73 main_v74 rfl shapeCasts_S16x16x1x1_S16x16,
    unary main_v72 main_v75 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v74 main_v76 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v75 main_v77 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v76 main_v78 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v77 main_v78 main_v79 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_7 (constant S_ .f32 0xFF800000#32),
    binary main_v79 main_cst_7 main_v80 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v71 main_v80 main_v81 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v82 ((extractStridedSlice S4x16x253x253 ![0, 0, 2, 0] · slices_S4x16x256x256_S4x16x253x253_0_0_2_0) : (⟨S4x16x256x256, .f32⟩ : BufTy).Contents (Elt F) → (⟨S4x16x253x253, .f32⟩ : BufTy).Contents (Elt F)),
    unary main_arg1 main_v83 ((extractStridedSlice S16x16x1x1 ![0, 0, 2, 0] · slices_S16x16x4x4_S16x16x1x1_0_0_2_0) : (⟨S16x16x4x4, .f32⟩ : BufTy).Contents (Elt F) → (⟨S16x16x1x1, .f32⟩ : BufTy).Contents (Elt F)),
    reshape main_v83 main_v84 rfl shapeCasts_S16x16x1x1_S16x16,
    unary main_v82 main_v85 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v84 main_v86 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v85 main_v87 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v86 main_v88 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v87 main_v88 main_v89 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_8 (constant S_ .f32 0xFF800000#32),
    binary main_v89 main_cst_8 main_v90 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v81 main_v90 main_v91 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v92 ((extractStridedSlice S4x16x253x253 ![0, 0, 2, 1] · slices_S4x16x256x256_S4x16x253x253_0_0_2_1) : (⟨S4x16x256x256, .f32⟩ : BufTy).Contents (Elt F) → (⟨S4x16x253x253, .f32⟩ : BufTy).Contents (Elt F)),
    unary main_arg1 main_v93 ((extractStridedSlice S16x16x1x1 ![0, 0, 2, 1] · slices_S16x16x4x4_S16x16x1x1_0_0_2_1) : (⟨S16x16x4x4, .f32⟩ : BufTy).Contents (Elt F) → (⟨S16x16x1x1, .f32⟩ : BufTy).Contents (Elt F)),
    reshape main_v93 main_v94 rfl shapeCasts_S16x16x1x1_S16x16,
    unary main_v92 main_v95 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v94 main_v96 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v95 main_v97 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v96 main_v98 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v97 main_v98 main_v99 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_9 (constant S_ .f32 0xFF800000#32),
    binary main_v99 main_cst_9 main_v100 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v91 main_v100 main_v101 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v102 ((extractStridedSlice S4x16x253x253 ![0, 0, 2, 2] · slices_S4x16x256x256_S4x16x253x253_0_0_2_2) : (⟨S4x16x256x256, .f32⟩ : BufTy).Contents (Elt F) → (⟨S4x16x253x253, .f32⟩ : BufTy).Contents (Elt F)),
    unary main_arg1 main_v103 ((extractStridedSlice S16x16x1x1 ![0, 0, 2, 2] · slices_S16x16x4x4_S16x16x1x1_0_0_2_2) : (⟨S16x16x4x4, .f32⟩ : BufTy).Contents (Elt F) → (⟨S16x16x1x1, .f32⟩ : BufTy).Contents (Elt F)),
    reshape main_v103 main_v104 rfl shapeCasts_S16x16x1x1_S16x16,
    unary main_v102 main_v105 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v104 main_v106 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v105 main_v107 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v106 main_v108 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v107 main_v108 main_v109 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_10 (constant S_ .f32 0xFF800000#32),
    binary main_v109 main_cst_10 main_v110 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v101 main_v110 main_v111 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v112 ((extractStridedSlice S4x16x253x253 ![0, 0, 2, 3] · slices_S4x16x256x256_S4x16x253x253_0_0_2_3) : (⟨S4x16x256x256, .f32⟩ : BufTy).Contents (Elt F) → (⟨S4x16x253x253, .f32⟩ : BufTy).Contents (Elt F)),
    unary main_arg1 main_v113 ((extractStridedSlice S16x16x1x1 ![0, 0, 2, 3] · slices_S16x16x4x4_S16x16x1x1_0_0_2_3) : (⟨S16x16x4x4, .f32⟩ : BufTy).Contents (Elt F) → (⟨S16x16x1x1, .f32⟩ : BufTy).Contents (Elt F)),
    reshape main_v113 main_v114 rfl shapeCasts_S16x16x1x1_S16x16,
    unary main_v112 main_v115 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v114 main_v116 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v115 main_v117 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v116 main_v118 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v117 main_v118 main_v119 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_11 (constant S_ .f32 0xFF800000#32),
    binary main_v119 main_cst_11 main_v120 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v111 main_v120 main_v121 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v122 ((extractStridedSlice S4x16x253x253 ![0, 0, 3, 0] · slices_S4x16x256x256_S4x16x253x253_0_0_3_0) : (⟨S4x16x256x256, .f32⟩ : BufTy).Contents (Elt F) → (⟨S4x16x253x253, .f32⟩ : BufTy).Contents (Elt F)),
    unary main_arg1 main_v123 ((extractStridedSlice S16x16x1x1 ![0, 0, 3, 0] · slices_S16x16x4x4_S16x16x1x1_0_0_3_0) : (⟨S16x16x4x4, .f32⟩ : BufTy).Contents (Elt F) → (⟨S16x16x1x1, .f32⟩ : BufTy).Contents (Elt F)),
    reshape main_v123 main_v124 rfl shapeCasts_S16x16x1x1_S16x16,
    unary main_v122 main_v125 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v124 main_v126 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v125 main_v127 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v126 main_v128 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v127 main_v128 main_v129 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_12 (constant S_ .f32 0xFF800000#32),
    binary main_v129 main_cst_12 main_v130 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v121 main_v130 main_v131 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v132 ((extractStridedSlice S4x16x253x253 ![0, 0, 3, 1] · slices_S4x16x256x256_S4x16x253x253_0_0_3_1) : (⟨S4x16x256x256, .f32⟩ : BufTy).Contents (Elt F) → (⟨S4x16x253x253, .f32⟩ : BufTy).Contents (Elt F)),
    unary main_arg1 main_v133 ((extractStridedSlice S16x16x1x1 ![0, 0, 3, 1] · slices_S16x16x4x4_S16x16x1x1_0_0_3_1) : (⟨S16x16x4x4, .f32⟩ : BufTy).Contents (Elt F) → (⟨S16x16x1x1, .f32⟩ : BufTy).Contents (Elt F)),
    reshape main_v133 main_v134 rfl shapeCasts_S16x16x1x1_S16x16,
    unary main_v132 main_v135 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v134 main_v136 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v135 main_v137 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v136 main_v138 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v137 main_v138 main_v139 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_13 (constant S_ .f32 0xFF800000#32),
    binary main_v139 main_cst_13 main_v140 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v131 main_v140 main_v141 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v142 ((extractStridedSlice S4x16x253x253 ![0, 0, 3, 2] · slices_S4x16x256x256_S4x16x253x253_0_0_3_2) : (⟨S4x16x256x256, .f32⟩ : BufTy).Contents (Elt F) → (⟨S4x16x253x253, .f32⟩ : BufTy).Contents (Elt F)),
    unary main_arg1 main_v143 ((extractStridedSlice S16x16x1x1 ![0, 0, 3, 2] · slices_S16x16x4x4_S16x16x1x1_0_0_3_2) : (⟨S16x16x4x4, .f32⟩ : BufTy).Contents (Elt F) → (⟨S16x16x1x1, .f32⟩ : BufTy).Contents (Elt F)),
    reshape main_v143 main_v144 rfl shapeCasts_S16x16x1x1_S16x16,
    unary main_v142 main_v145 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v144 main_v146 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v145 main_v147 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v146 main_v148 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v147 main_v148 main_v149 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_14 (constant S_ .f32 0xFF800000#32),
    binary main_v149 main_cst_14 main_v150 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v141 main_v150 main_v151 (maximumf : (⟨S4x16x253x253, .f32⟩ : BufTy).Contents (Elt F) → (⟨S4x16x253x253, .f32⟩ : BufTy).Contents (Elt F) → (⟨S4x16x253x253, .f32⟩ : BufTy).Contents (Elt F)),
    unary main_v0 main_v152 ((extractStridedSlice S4x16x253x253 ![0, 0, 3, 3] · slices_S4x16x256x256_S4x16x253x253_0_0_3_3) : (⟨S4x16x256x256, .f32⟩ : BufTy).Contents (Elt F) → (⟨S4x16x253x253, .f32⟩ : BufTy).Contents (Elt F)),
    unary main_arg1 main_v153 ((extractStridedSlice S16x16x1x1 ![0, 0, 3, 3] · slices_S16x16x4x4_S16x16x1x1_0_0_3_3) : (⟨S16x16x4x4, .f32⟩ : BufTy).Contents (Elt F) → (⟨S16x16x1x1, .f32⟩ : BufTy).Contents (Elt F)),
    reshape main_v153 main_v154 rfl shapeCasts_S16x16x1x1_S16x16,
    unary main_v152 main_v155 (broadcastInDim S4x1x16x253x253 ![0, 2, 3, 4] bcast_S4x16x253x253_S4x1x16x253x253_0_2_3_4 : (⟨S4x16x253x253, .f32⟩ : BufTy).Contents (Elt F) → (⟨S4x1x16x253x253, .f32⟩ : BufTy).Contents (Elt F)),
    unary main_v154 main_v156 (broadcastInDim S1x16x16x1x1 ![1, 2] bcast_S16x16_S1x16x16x1x1_1_2 : (⟨S16x16, .f32⟩ : BufTy).Contents (Elt F) → (⟨S1x16x16x1x1, .f32⟩ : BufTy).Contents (Elt F)),
    unary main_v155 main_v157 (broadcastInDim S4x16x16x253x253 ![0, 1, 2, 3, 4] bcast_S4x1x16x253x253_S4x16x16x253x253_0_1_2_3_4 : (⟨S4x1x16x253x253, .f32⟩ : BufTy).Contents (Elt F) → (⟨S4x16x16x253x253, .f32⟩ : BufTy).Contents (Elt F)),
    unary main_v156 main_v158 (broadcastInDim S4x16x16x253x253 ![0, 1, 2, 3, 4] bcast_S1x16x16x1x1_S4x16x16x253x253_0_1_2_3_4 : (⟨S1x16x16x1x1, .f32⟩ : BufTy).Contents (Elt F) → (⟨S4x16x16x253x253, .f32⟩ : BufTy).Contents (Elt F)),
    binary main_v157 main_v158 main_v159 (mulf : (⟨S4x16x16x253x253, .f32⟩ : BufTy).Contents (Elt F) → (⟨S4x16x16x253x253, .f32⟩ : BufTy).Contents (Elt F) → (⟨S4x16x16x253x253, .f32⟩ : BufTy).Contents (Elt F)),
    nullary main_cst_15 (constant S_ .f32 0xFF800000#32),
    binary main_v159 main_cst_15 main_v160 ((fun x v => Host.reduce FloatOps.maximumf x v reducesTo_S4x16x16x253x253_S4x16x253x253_d2 h_S_) : (⟨S4x16x16x253x253, .f32⟩ : BufTy).Contents (Elt F) → (⟨S_, .f32⟩ : BufTy).Contents (Elt F) → (⟨S4x16x253x253, .f32⟩ : BufTy).Contents (Elt F)),
    binary main_v151 main_v160 main_v161 (maximumf : (⟨S4x16x253x253, .f32⟩ : BufTy).Contents (Elt F) → (⟨S4x16x253x253, .f32⟩ : BufTy).Contents (Elt F) → (⟨S4x16x253x253, .f32⟩ : BufTy).Contents (Elt F)) ]

set_option maxRecDepth 8192 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 8000000 in
theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub .., unary_bufs_sub .., unary_bufs_sub .., reshape_bufs_sub .., unary_bufs_sub .., unary_bufs_sub .., unary_bufs_sub .., unary_bufs_sub .., binary_bufs_sub .., nullary_bufs_sub .., binary_bufs_sub .., binary_bufs_sub ..⟩

/-! ## The run -/

set_option maxRecDepth 8192 in
set_option maxHeartbeats 80000000 in
/-- On every device, for any float values, from any memory with zero counters: every weakly fair execution of @main
    terminates with the result buffer at `hostOut` of the padded first argument and the second, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
          = hostOut (padded (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v161).trans (by after_results_simp <;> rfl <;> (unfold hostOut hostTap padded; rfl)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.ReferenceTap.lean ====
/-
  One tap of the reference, read at an index.

  The reference takes the 253 × 253 window of the padded input at offset (i, j) and the [16, 16] slice of the filters at
  (i, j), lays both out over (batch, output channel, input channel, row, column) = [4, 16, 16, 253, 253] — the window is
  constant along the output channel, the filter slice along batch, row and column —, multiplies, and takes the maximum over
  the input-channel axis from −∞. At (b, o, r, s) that is the maximum over the input channels `c` of
  `xp[b, c, r+i, s+j] · w[o, c, i, j]`: the tap of the specification.
-/
import proofs.«162296_j11940009082933_1_alg».proof.Proof.TropicalConv
import Idealize.ShloMosaic.Lib.Pipeline.Value

noncomputable section

namespace Cert.TropicalConv

open Idealize.ShloMosaic Idealize.ShloMosaic.ValueIdx

/-- The host's maximum over the input-channel axis (axis 2) of a [4, 16, 16, 253, 253] array, from the scalar −∞, at
    (b, o, r, s): the fold of `max` over the channels `c` of the array at (b, o, c, r, s). -/
theorem hostChanMax_apply (src : FVec Ideal ⟨5, ![4, 16, 16, 253, 253]⟩ .f32)
    (hr : (⟨5, ![4, 16, 16, 253, 253]⟩ : Shape).ReducesTo [2] ⟨4, ![4, 16, 253, 253]⟩)
    (hu : 0 < (⟨0, ![]⟩ : Shape).numel) (b : Fin 4) (o : Fin 16) (r s : Fin 253) :
    Host.reduce FloatOps.maximumf src (constant (F := Ideal) ⟨0, ![]⟩ .f32 0xFF800000#32) hr hu (ix4 b o r s)
      = (Finset.univ : Finset (Fin 16)).fold max (Ideal.ofBits .f32 0xFF800000#32) (fun c => src (ix5 b o c r s)) := by
  have hR : (⟨5, ![4, 16, 16, 253, 253]⟩ : Shape).Reduces [2] ⟨4, ![4, 16, 253, 253]⟩ := by decide
  have h := Host.reduce_eq_fold_single (FloatOps.maximumf (F := Ideal) (φ := .f32)) src
    (constant (F := Ideal) ⟨0, ![]⟩ .f32 0xFF800000#32) hr hR hu (ix4 b o r s)
  refine h.trans ?_
  show (Finset.univ : Finset (Fin 16)).fold max (Ideal.ofBits .f32 0xFF800000#32) (src ∘ hR.lift (ix4 b o r s)) = _
  refine congrArg (fun f => (Finset.univ : Finset (Fin 16)).fold max (Ideal.ofBits .f32 0xFF800000#32) f) ?_
  funext c
  show src (hR.lift (ix4 b o r s) c) = src (ix5 b o c r s)
  refine congrArg src ?_
  funext a
  apply Fin.ext
  match a with
  | ⟨0, _⟩ => rfl
  | ⟨1, _⟩ => rfl
  | ⟨2, _⟩ => rfl
  | ⟨3, _⟩ => rfl
  | ⟨4, _⟩ => rfl

/-- The window at offset (i, j), laid out over the five axes, at (b, o, c, r, s): the padded input at (b, c, r+i, s+j). -/
theorem hostWindow_apply (xp : FVec Ideal SPad .f32) (i j : Fin 4)
    (hx : SPad.Slices ![0, 0, i.val, j.val] SOut)
    (hb1 : SOut.BroadcastsInDim ⟨5, ![4, 1, 16, 253, 253]⟩ (![0, 2, 3, 4] : Fin 4 → Fin 5))
    (hb3 : (⟨5, ![4, 1, 16, 253, 253]⟩ : Shape).BroadcastsInDim ⟨5, ![4, 16, 16, 253, 253]⟩ (![0, 1, 2, 3, 4] : Fin 5 → Fin 5))
    (b : Fin 4) (o c : Fin 16) (r s : Fin 253) :
    broadcastInDim ⟨5, ![4, 16, 16, 253, 253]⟩ ![0, 1, 2, 3, 4] hb3
        (broadcastInDim ⟨5, ![4, 1, 16, 253, 253]⟩ ![0, 2, 3, 4] hb1 (extractStridedSlice SOut ![0, 0, i.val, j.val] xp hx))
        (ix5 b o c r s)
      = xp (ix4 b c (shift r i) (shift s j)) := by
  refine (broadcastInDim_apply _ hb3 _ (ix5 b o c r s) (ix5 b 0 c r s) (fun a => ?_)).trans ?_
  · match a with
    | ⟨0, _⟩ => show b.val = if (4 : Nat) = 1 then 0 else b.val; rw [if_neg (by decide)]
    | ⟨1, _⟩ => show 0 = if (1 : Nat) = 1 then 0 else o.val; rw [if_pos rfl]
    | ⟨2, _⟩ => show c.val = if (16 : Nat) = 1 then 0 else c.val; rw [if_neg (by decide)]
    | ⟨3, _⟩ => show r.val = if (253 : Nat) = 1 then 0 else r.val; rw [if_neg (by decide)]
    | ⟨4, _⟩ => show s.val = if (253 : Nat) = 1 then 0 else s.val; rw [if_neg (by decide)]
  refine (broadcastInDim_apply _ hb1 _ (ix5 b 0 c r s) (ix4 b c r s) (fun a => ?_)).trans ?_
  · match a with
    | ⟨0, _⟩ => show b.val = if (4 : Nat) = 1 then 0 else b.val; rw [if_neg (by decide)]
    | ⟨1, _⟩ => show c.val = if (16 : Nat) = 1 then 0 else c.val; rw [if_neg (by decide)]
    | ⟨2, _⟩ => show r.val = if (253 : Nat) = 1 then 0 else r.val; rw [if_neg (by decide)]
    | ⟨3, _⟩ => show s.val = if (253 : Nat) = 1 then 0 else s.val; rw [if_neg (by decide)]
  exact extractStridedSlice_apply ![0, 0, i.val, j.val] xp hx (ix4 b c r s) (ix4 b c (shift r i) (shift s j)) (fun a => by
    match a with
    | ⟨0, _⟩ => show b.val = 0 + b.val; omega
    | ⟨1, _⟩ => show c.val = 0 + c.val; omega
    | ⟨2, _⟩ => show r.val + i.val = i.val + r.val; omega
    | ⟨3, _⟩ => show s.val + j.val = j.val + s.val; omega)

/-- The filter slice at (i, j), laid out over the five axes, at (b, o, c, r, s): the filter weight at (o, c, i, j). -/
theorem hostFilter_apply (w : FVec Ideal SFil .f32) (i j : Fin 4)
    (hw : SFil.Slices ![0, 0, i.val, j.val] ⟨4, ![16, 16, 1, 1]⟩)
    (hc : (⟨4, ![16, 16, 1, 1]⟩ : Shape).ShapeCasts ⟨2, ![16, 16]⟩)
    (hb2 : (⟨2, ![16, 16]⟩ : Shape).BroadcastsInDim ⟨5, ![1, 16, 16, 1, 1]⟩ (![1, 2] : Fin 2 → Fin 5))
    (hb4 : (⟨5, ![1, 16, 16, 1, 1]⟩ : Shape).BroadcastsInDim ⟨5, ![4, 16, 16, 253, 253]⟩ (![0, 1, 2, 3, 4] : Fin 5 → Fin 5))
    (b : Fin 4) (o c : Fin 16) (r s : Fin 253) :
    broadcastInDim ⟨5, ![4, 16, 16, 253, 253]⟩ ![0, 1, 2, 3, 4] hb4
        (broadcastInDim ⟨5, ![1, 16, 16, 1, 1]⟩ ![1, 2] hb2
          (shapeCast ⟨2, ![16, 16]⟩ (extractStridedSlice ⟨4, ![16, 16, 1, 1]⟩ ![0, 0, i.val, j.val] w hw) hc))
        (ix5 b o c r s)
      = w (ix4 o c i j) := by
  refine (broadcastInDim_apply _ hb4 _ (ix5 b o c r s) (ix5 0 o c 0 0) (fun a => ?_)).trans ?_
  · match a with
    | ⟨0, _⟩ => show 0 = if (1 : Nat) = 1 then 0 else b.val; rw [if_pos rfl]
    | ⟨1, _⟩ => show o.val = if (16 : Nat) = 1 then 0 else o.val; rw [if_neg (by decide)]
    | ⟨2, _⟩ => show c.val = if (16 : Nat) = 1 then 0 else c.val; rw [if_neg (by decide)]
    | ⟨3, _⟩ => show 0 = if (1 : Nat) = 1 then 0 else r.val; rw [if_pos rfl]
    | ⟨4, _⟩ => show 0 = if (1 : Nat) = 1 then 0 else s.val; rw [if_pos rfl]
  refine (broadcastInDim_apply _ hb2 _ (ix5 0 o c 0 0) (ix2 o c) (fun a => ?_)).trans ?_
  · match a with
    | ⟨0, _⟩ => show o.val = if (16 : Nat) = 1 then 0 else o.val; rw [if_neg (by decide)]
    | ⟨1, _⟩ => show c.val = if (16 : Nat) = 1 then 0 else c.val; rw [if_neg (by decide)]
  refine (shapeCast_apply _ hc (ix2 o c) (ix4 o c 0 0) (by
    rw [Shape.rowMajor_val_four, Shape.rowMajor_val_two]
    show ((o.val * 16 + c.val) * 1 + 0) * 1 + 0 = o.val * 16 + c.val
    omega)).trans ?_
  exact extractStridedSlice_apply ![0, 0, i.val, j.val] w hw (ix4 o c 0 0) (ix4 o c i j) (fun a => by
    match a with
    | ⟨0, _⟩ => show o.val = 0 + o.val; omega
    | ⟨1, _⟩ => show c.val = 0 + c.val; omega
    | ⟨2, _⟩ => show i.val = i.val + 0; omega
    | ⟨3, _⟩ => show j.val = j.val + 0; omega)

/-- ONE TAP OF THE REFERENCE at (b, o, r, s) is the specification's tap. -/
theorem hostTap_read (xp : FVec Ideal SPad .f32) (w : FVec Ideal SFil .f32) (i j : Fin 4)
    (hx : SPad.Slices ![0, 0, i.val, j.val] SOut)
    (hw : SFil.Slices ![0, 0, i.val, j.val] ⟨4, ![16, 16, 1, 1]⟩)
    (hc : (⟨4, ![16, 16, 1, 1]⟩ : Shape).ShapeCasts ⟨2, ![16, 16]⟩)
    (hb1 : SOut.BroadcastsInDim ⟨5, ![4, 1, 16, 253, 253]⟩ (![0, 2, 3, 4] : Fin 4 → Fin 5))
    (hb2 : (⟨2, ![16, 16]⟩ : Shape).BroadcastsInDim ⟨5, ![1, 16, 16, 1, 1]⟩ (![1, 2] : Fin 2 → Fin 5))
    (hb3 : (⟨5, ![4, 1, 16, 253, 253]⟩ : Shape).BroadcastsInDim ⟨5, ![4, 16, 16, 253, 253]⟩ (![0, 1, 2, 3, 4] : Fin 5 → Fin 5))
    (hb4 : (⟨5, ![1, 16, 16, 1, 1]⟩ : Shape).BroadcastsInDim ⟨5, ![4, 16, 16, 253, 253]⟩ (![0, 1, 2, 3, 4] : Fin 5 → Fin 5))
    (hr : (⟨5, ![4, 16, 16, 253, 253]⟩ : Shape).ReducesTo [2] ⟨4, ![4, 16, 253, 253]⟩)
    (hu : 0 < (⟨0, ![]⟩ : Shape).numel) (b : Fin 4) (o : Fin 16) (r s : Fin 253) :
    Host.reduce FloatOps.maximumf
        (mulf
          (broadcastInDim ⟨5, ![4, 16, 16, 253, 253]⟩ ![0, 1, 2, 3, 4] hb3
            (broadcastInDim ⟨5, ![4, 1, 16, 253, 253]⟩ ![0, 2, 3, 4] hb1 (extractStridedSlice SOut ![0, 0, i.val, j.val] xp hx)))
          (broadcastInDim ⟨5, ![4, 16, 16, 253, 253]⟩ ![0, 1, 2, 3, 4] hb4
            (broadcastInDim ⟨5, ![1, 16, 16, 1, 1]⟩ ![1, 2] hb2
              (shapeCast ⟨2, ![16, 16]⟩ (extractStridedSlice ⟨4, ![16, 16, 1, 1]⟩ ![0, 0, i.val, j.val] w hw) hc))))
        (constant (F := Ideal) ⟨0, ![]⟩ .f32 0xFF800000#32) hr hu (ix4 b o r s)
      = tap xp w b o r s i j := by
  refine (hostChanMax_apply _ hr hu b o r s).trans ?_
  unfold tap
  refine congrArg (fun f => (Finset.univ : Finset (Fin 16)).fold max (Ideal.ofBits .f32 0xFF800000#32) f) ?_
  funext c
  show broadcastInDim ⟨5, ![4, 16, 16, 253, 253]⟩ ![0, 1, 2, 3, 4] hb3
        (broadcastInDim ⟨5, ![4, 1, 16, 253, 253]⟩ ![0, 2, 3, 4] hb1 (extractStridedSlice SOut ![0, 0, i.val, j.val] xp hx)) (ix5 b o c r s)
      * broadcastInDim ⟨5, ![4, 16, 16, 253, 253]⟩ ![0, 1, 2, 3, 4] hb4
        (broadcastInDim ⟨5, ![1, 16, 16, 1, 1]⟩ ![1, 2] hb2
          (shapeCast ⟨2, ![16, 16]⟩ (extractStridedSlice ⟨4, ![16, 16, 1, 1]⟩ ![0, 0, i.val, j.val] w hw) hc)) (ix5 b o c r s) = _
  rw [hostWindow_apply xp i j hx hb1 hb3 b o c r s, hostFilter_apply w i j hw hc hb2 hb4 b o c r s]

end Cert.TropicalConv

end
-- ==== Proof.ReferenceValue.lean ====
/-
  The reference's result is the specification.

  The run leaves in the result buffer the running maximum, over the sixteen taps in row-major order, of each tap's
  channel maximum, from the broadcast starting constant. At an index (b, o, r, s): the broadcast constant reads its
  value, a pointwise maximum of two arrays reads `max` of their entries, and each tap reads the specification's tap.
-/
import proofs.«162296_j11940009082933_1_alg».proof.Proof.ReferenceRun
import proofs.«162296_j11940009082933_1_alg».proof.Proof.ReferenceTap

noncomputable section

namespace Cert.ReferenceIdeal.HostValue

open Cert.ReferenceIdeal Cert.ReferenceIdeal.Gen Cert.ReferenceIdeal.HostRun
open Idealize.ShloMosaic Idealize.ShloMosaic.ValueIdx Cert.TropicalConv

/-- One tap of the reference at (b, o, r, s) is the specification's tap. -/
theorem hostTap_apply (xp : FVec Ideal S4x16x256x256 .f32) (w : FVec Ideal S16x16x4x4 .f32) (i j : Fin 4)
    (hx : S4x16x256x256.Slices ![0, 0, i.val, j.val] S4x16x253x253)
    (hw : S16x16x4x4.Slices ![0, 0, i.val, j.val] S16x16x1x1) (b : Fin 4) (o : Fin 16) (r s : Fin 253) :
    hostTap (F := Ideal) xp w i j hx hw (ix4 b o r s) = tap xp w b o r s i j := by
  unfold hostTap
  exact hostTap_read xp w i j hx hw shapeCasts_S16x16x1x1_S16x16 bcast_S4x16x253x253_S4x1x16x253x253_0_2_3_4
    bcast_S16x16_S1x16x16x1x1_1_2 bcast_S4x1x16x253x253_S4x16x16x253x253_0_1_2_3_4
    bcast_S1x16x16x1x1_S4x16x16x253x253_0_1_2_3_4 reducesTo_S4x16x16x253x253_S4x16x253x253_d2 h_S_ b o r s

/-- The broadcast starting constant reads its value everywhere. -/
theorem start_apply (q : S4x16x253x253.Idx) :
    broadcastInDim S4x16x253x253 ![] bcast_S_S4x16x253x253 (constant (F := Ideal) S_ .f32 0xFF7FFFFF#32) q
      = Ideal.ofBits .f32 0xFF7FFFFF#32 :=
  (broadcastInDim_apply _ bcast_S_S4x16x253x253 (constant (F := Ideal) S_ .f32 0xFF7FFFFF#32) q ix0 (fun a => a.elim0)).trans rfl

/-- One step of the running maximum: a pointwise maximum of two arrays at an index is `max` of what they are there. -/
theorem hmax_step {S : Shape} {A B : FVec Ideal S .f32} {q : S.Idx} {a' b' : EReal} (ha : A q = a') (hb : B q = b') :
    maximumf A B q = max a' b' := by
  subst ha; subst hb; rfl

/-- THE REFERENCE'S RESULT, as a function of the padded input and the filters, is the specification. -/
theorem hostOut_eq_conv (xp : FVec Ideal S4x16x256x256 .f32) (w : FVec Ideal S16x16x4x4 .f32) :
    hostOut (F := Ideal) xp w = conv xp w := by
  funext q
  obtain ⟨b, o, r, s, rfl⟩ : ∃ (b : Fin 4) (o : Fin 16) (r s : Fin 253), q = ix4 b o r s := ⟨q 0, q 1, q 2, q 3, eq_ix4 q⟩
  show hostOut xp w (ix4 b o r s) = at4 xp w b o r s
  rw [at4_unfold]
  unfold hostOut
  exact hmax_step (hmax_step (hmax_step (hmax_step (hmax_step (hmax_step (hmax_step (hmax_step (hmax_step (hmax_step (hmax_step (hmax_step (hmax_step (hmax_step (hmax_step (hmax_step (start_apply (ix4 b o r s))
    (hostTap_apply xp w 0 0 _ _ b o r s))
    (hostTap_apply xp w 0 1 _ _ b o r s))
    (hostTap_apply xp w 0 2 _ _ b o r s))
    (hostTap_apply xp w 0 3 _ _ b o r s))
    (hostTap_apply xp w 1 0 _ _ b o r s))
    (hostTap_apply xp w 1 1 _ _ b o r s))
    (hostTap_apply xp w 1 2 _ _ b o r s))
    (hostTap_apply xp w 1 3 _ _ b o r s))
    (hostTap_apply xp w 2 0 _ _ b o r s))
    (hostTap_apply xp w 2 1 _ _ b o r s))
    (hostTap_apply xp w 2 2 _ _ b o r s))
    (hostTap_apply xp w 2 3 _ _ b o r s))
    (hostTap_apply xp w 3 0 _ _ b o r s))
    (hostTap_apply xp w 3 1 _ _ b o r s))
    (hostTap_apply xp w 3 2 _ _ b o r s))
    (hostTap_apply xp w 3 3 _ _ b o r s)

end Cert.ReferenceIdeal.HostValue

end
-- ==== Proof.lean ====
/-
  The kernel computes the max-times convolution of the zero-padded input with the filters, and so does the reference.

  Both programs pad the input by two rows and two columns of zeros on each side on the host. The kernel then runs a grid of
  4 × 16 points, one per (batch entry, output channel): each point stages one batch entry of the padded input and one
  output channel's filters and writes one 253 × 253 plane of the result, the running maximum — from the most negative
  finite f32 — over the sixteen taps (i, j) of the 4 × 4 footprint of the maximum, over the sixteen input channels, of
  input times weight. The reference computes the same running maximum for all planes at once, tap by tap, with the window
  and the filter slice broadcast against each other and a maximum over the input-channel axis. At the ideal values a
  maximum over one axis is the fold of `max` over that axis's coordinates whichever program takes it, so both results are
  ONE function of the padded input and the filters (Proof/TropicalConv.lean), term for term; no algebraic law beyond that
  reading is needed, and finiteness of the inputs is never used.

  The parts: Proof/KernelTap.lean and Proof/KernelBlock.lean read the kernel body's stored block index by index;
  Proof/KernelArray.lean goes from the blocks to the whole array and restates the kernel's run; Proof/ReferenceRun.lean is
  the reference's run; Proof/ReferenceTap.lean and Proof/ReferenceValue.lean read the reference's result index by index.
  The ideal pass rewrote nothing in the kernel, so the idealization claim is trivially true.
-/
import proofs.«162296_j11940009082933_1_alg».proof.Defs
import proofs.«162296_j11940009082933_1_alg».proof.Proof.Gen.Kernel
import proofs.«162296_j11940009082933_1_alg».proof.Proof.Gen.Kernel.Skeleton
import proofs.«162296_j11940009082933_1_alg».proof.Proof.Gen.Kernel.Launch
import proofs.«162296_j11940009082933_1_alg».proof.Proof.Gen.Kernel.Points
import proofs.«162296_j11940009082933_1_alg».proof.Proof.Gen.Kernel.Frame
import proofs.«162296_j11940009082933_1_alg».proof.Proof.Gen.KernelIdeal
import proofs.«162296_j11940009082933_1_alg».proof.Proof.Gen.KernelIdeal.Skeleton
import proofs.«162296_j11940009082933_1_alg».proof.Proof.Gen.KernelIdeal.Launch
import proofs.«162296_j11940009082933_1_alg».proof.Proof.Gen.KernelIdeal.Points
import proofs.«162296_j11940009082933_1_alg».proof.Proof.Gen.KernelIdeal.Frame
import proofs.«162296_j11940009082933_1_alg».proof.Proof.Gen.ReferenceIdeal
import proofs.«162296_j11940009082933_1_alg».proof.Proof.Gen.Pre_finite_inputs
import proofs.«162296_j11940009082933_1_alg».proof.Proof.Gen.KernelIdeal.Value
import proofs.«162296_j11940009082933_1_alg».proof.Proof.KernelArray
import proofs.«162296_j11940009082933_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- So does the idealized reference: its run, with the result forgotten. -/
theorem frame_referenceIdeal : Cert.frame_ReferenceIdeal :=
  fun m ρ _ => (θ_run Cert.ReferenceIdeal.defs _ _).mono (fun _ h c => (h c).2)
    (Cert.ReferenceIdeal.HostRun.run (F := Ideal) m ρ)

/-- From memories agreeing on the arguments both idealized programs run, and both results are the max-times convolution of
    the padded first argument with the second. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  exact Cert.ReferenceIdeal.HostValue.hostOut_eq_conv _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
